-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x262144x3 : Shape := ⟨3, ![1, 262144, 3]⟩
abbrev S1x262144x10 : Shape := ⟨3, ![1, 262144, 10]⟩
abbrev S1x262144x64 : Shape := ⟨3, ![1, 262144, 64]⟩
abbrev S4096 : Shape := ⟨1, ![4096]⟩
abbrev S_ : Shape := ⟨0, ![]⟩

class Facts : Prop where
  bcast_S_S1x262144x3 : S_.BroadcastsInDim S1x262144x3 (![] : Fin 0 → Fin S1x262144x3.rank)
  reducesTo_S1x262144x3_S_d0_1_2 : S1x262144x3.ReducesTo [0, 1, 2] S_
  h_S_ : 0 < S_.numel
  bcast_S_S1x262144x10 : S_.BroadcastsInDim S1x262144x10 (![] : Fin 0 → Fin S1x262144x10.rank)
  reducesTo_S1x262144x10_S_d0_1_2 : S1x262144x10.ReducesTo [0, 1, 2] S_
  bcast_S_S1x262144x64 : S_.BroadcastsInDim S1x262144x64 (![] : Fin 0 → Fin S1x262144x64.rank)
  reducesTo_S1x262144x64_S_d0_1_2 : S1x262144x64.ReducesTo [0, 1, 2] S_

variable [Facts]

def fn_part1 {F : FTy → Type} [FloatOps F] (main_arg4 : FVec F S1x262144x64 .f32) (main_v13 : IVec S_ 1) (main_v16 : IVec S1x262144x10 1) : IVec S_ 1 :=
  let main_c_5 : IVec S_ 1 := constantI S_ 1 1#1
  let main_v17 : IVec S_ 1 := (fun x v => Host.reduce IntOp.andi x v reducesTo_S1x262144x10_S_d0_1_2 h_S_) main_v16 main_c_5
  let main_v18 : IVec S_ 1 := andi main_v13 main_v17
  let main_v19 : FVec F S1x262144x64 .f32 := Host.absf main_arg4
  let main_cst_6 : FVec F S_ .f32 := constant S_ .f32 0x7F800000#32
  let main_v20 : FVec F S1x262144x64 .f32 := broadcastInDim S1x262144x64 ![] bcast_S_S1x262144x64 main_cst_6
  let main_v21 : IVec S1x262144x64 1 := cmpf .olt main_v19 main_v20
  let main_c_7 : IVec S_ 1 := constantI S_ 1 1#1
  let main_v22 : IVec S_ 1 := (fun x v => Host.reduce IntOp.andi x v reducesTo_S1x262144x64_S_d0_1_2 h_S_) main_v21 main_c_7
  let main_v23 : IVec S_ 1 := andi main_v18 main_v22
  main_v23

def fn {F : FTy → Type} [FloatOps F] (main_arg0 : FVec F S1x262144x3 .f32) (main_arg1 : FVec F S1x262144x10 .f32) (main_arg2 : FVec F S1x262144x3 .f32) (main_arg3 : FVec F S1x262144x10 .f32) (main_arg4 : FVec F S1x262144x64 .f32) (main_arg5 : IVec S4096 32) (main_arg6 : IVec S4096 32) (main_arg7 : IVec S4096 32) : IVec S_ 1 :=
  let main_v0 : FVec F S1x262144x3 .f32 := Host.absf main_arg0
  let main_cst : FVec F S_ .f32 := constant S_ .f32 0x7F800000#32
  let main_v1 : FVec F S1x262144x3 .f32 := broadcastInDim S1x262144x3 ![] bcast_S_S1x262144x3 main_cst
  let main_v2 : IVec S1x262144x3 1 := cmpf .olt main_v0 main_v1
  let main_c : IVec S_ 1 := constantI S_ 1 1#1
  let main_v3 : IVec S_ 1 := (fun x v => Host.reduce IntOp.andi x v reducesTo_S1x262144x3_S_d0_1_2 h_S_) main_v2 main_c
  let main_v4 : FVec F S1x262144x10 .f32 := Host.absf main_arg1
  let main_cst_0 : FVec F S_ .f32 := constant S_ .f32 0x7F800000#32
  let main_v5 : FVec F S1x262144x10 .f32 := broadcastInDim S1x262144x10 ![] bcast_S_S1x262144x10 main_cst_0
  let main_v6 : IVec S1x262144x10 1 := cmpf .olt main_v4 main_v5
  let main_c_1 : IVec S_ 1 := constantI S_ 1 1#1
  let main_v7 : IVec S_ 1 := (fun x v => Host.reduce IntOp.andi x v reducesTo_S1x262144x10_S_d0_1_2 h_S_) main_v6 main_c_1
  let main_v8 : IVec S_ 1 := andi main_v3 main_v7
  let main_v9 : FVec F S1x262144x3 .f32 := Host.absf main_arg2
  let main_cst_2 : FVec F S_ .f32 := constant S_ .f32 0x7F800000#32
  let main_v10 : FVec F S1x262144x3 .f32 := broadcastInDim S1x262144x3 ![] bcast_S_S1x262144x3 main_cst_2
  let main_v11 : IVec S1x262144x3 1 := cmpf .olt main_v9 main_v10
  let main_c_3 : IVec S_ 1 := constantI S_ 1 1#1
  let main_v12 : IVec S_ 1 := (fun x v => Host.reduce IntOp.andi x v reducesTo_S1x262144x3_S_d0_1_2 h_S_) main_v11 main_c_3
  let main_v13 : IVec S_ 1 := andi main_v8 main_v12
  let main_v14 : FVec F S1x262144x10 .f32 := Host.absf main_arg3
  let main_cst_4 : FVec F S_ .f32 := constant S_ .f32 0x7F800000#32
  let main_v15 : FVec F S1x262144x10 .f32 := broadcastInDim S1x262144x10 ![] bcast_S_S1x262144x10 main_cst_4
  let main_v16 : IVec S1x262144x10 1 := cmpf .olt main_v14 main_v15
  fn_part1 (F := F) main_arg4 main_v13 main_v16
-- ==== Kernel.lean ====
abbrev S1x262144x3 : Shape := ⟨3, ![1, 262144, 3]⟩
abbrev S1x262144x10 : Shape := ⟨3, ![1, 262144, 10]⟩
abbrev S1x262144x64 : Shape := ⟨3, ![1, 262144, 64]⟩
abbrev S4096 : Shape := ⟨1, ![4096]⟩
abbrev S1x1 : Shape := ⟨2, ![1, 1]⟩
abbrev S1x4096x3 : Shape := ⟨3, ![1, 4096, 3]⟩
abbrev S1x4096x10 : Shape := ⟨3, ![1, 4096, 10]⟩
abbrev S1x4096 : Shape := ⟨2, ![1, 4096]⟩
abbrev S1x4096x1 : Shape := ⟨3, ![1, 4096, 1]⟩
abbrev S1x1x1 : Shape := ⟨3, ![1, 1, 1]⟩
abbrev S_ : Shape := ⟨0, ![]⟩
abbrev S262144x64 : Shape := ⟨2, ![262144, 64]⟩
abbrev S4096x1 : Shape := ⟨2, ![4096, 1]⟩
abbrev S4096x64 : Shape := ⟨2, ![4096, 64]⟩

abbrev nBuf : Space → Nat
  | .hbm => 69
  | .vmem => 12
  | .smem => 0
  | _ => 0

abbrev bufTy : (tb : Table) → Fin (tcTables nBuf tb) → BufTy
  | .hbm, ⟨0, _⟩ => ⟨S1x262144x3, .f32⟩
  | .hbm, ⟨1, _⟩ => ⟨S1x262144x10, .f32⟩
  | .hbm, ⟨2, _⟩ => ⟨S1x262144x3, .f32⟩
  | .hbm, ⟨3, _⟩ => ⟨S1x262144x10, .f32⟩
  | .hbm, ⟨4, _⟩ => ⟨S1x262144x64, .f32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S1x1, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S262144x64, .f32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096x1, .i32⟩
  | .hbm, ⟨26, _⟩ => ⟨S4096x64, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x64, .f32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S4096x64, .f32⟩
  | .hbm, ⟨45, _⟩ => ⟨S4096x64, .f32⟩
  | .hbm, ⟨46, _⟩ => ⟨S4096x64, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x64, .f32⟩
  | .hbm, ⟨51, _⟩ => ⟨S4096x64, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x4096x3, .f32⟩
  | .local _ .vmem, ⟨3, _⟩ => ⟨S1x4096x3, .f32⟩
  | .local _ .vmem, ⟨4, _⟩ => ⟨S1x4096x10, .f32⟩
  | .local _ .vmem, ⟨5, _⟩ => ⟨S1x4096x10, .f32⟩
  | .local _ .vmem, ⟨6, _⟩ => ⟨S1x4096x10, .f32⟩
  | .local _ .vmem, ⟨7, _⟩ => ⟨S1x4096x10, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | _, _ => ⟨S1x262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call0_cst : Ref sig .tc := ⟨.hbm, 56, rfl⟩
abbrev main_call0_v0 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_cst_10 : Ref sig .tc := ⟨.hbm, 63, rfl⟩
abbrev main_v40 : Ref sig .tc := ⟨.hbm, 64, rfl⟩
abbrev main_v41 : Ref sig .tc := ⟨.hbm, 65, rfl⟩
abbrev main_cst_11 : Ref sig .tc := ⟨.hbm, 66, rfl⟩
abbrev main_v42 : Ref sig .tc := ⟨.hbm, 67, rfl⟩
abbrev main_v43 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v40 : BitVec 1 := Scalar.cmpi .eq arg0 c63_i32
  let v41 : BitVec 32 := Scalar.extui v40
  let c0_i32_25 : BitVec 32 := 0#32
  let v42 : BitVec 1 := Scalar.cmpi .ne v41 c0_i32_25
  v42

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x4096x3_S1x4096x3_0_0_0 : ∀ a, (![0, 0, 0] : Fin 3 → Nat) a + S1x4096x3.size a ≤ S1x4096x3.size a
  h_S1x4096x3 : 0 < S1x4096x3.numel
  reduces_S1x4096x3_S1x4096 : S1x4096x3.Reduces [2] S1x4096
  shapeCasts_S1x4096_S1x4096x1 : S1x4096.ShapeCasts S1x4096x1
  reduces_S1x4096x1_S1x1 : S1x4096x1.Reduces [1] S1x1
  shapeCasts_S1x1_S1x1x1 : S1x1.ShapeCasts S1x1x1
  shapeCasts_S1x1x1_S1x1 : S1x1x1.ShapeCasts S1x1
  inb_S1x4096x10_S1x4096x10_0_0_0 : ∀ a, (![0, 0, 0] : Fin 3 → Nat) a + S1x4096x10.size a ≤ S1x4096x10.size a
  h_S1x4096x10 : 0 < S1x4096x10.numel
  reduces_S1x4096x10_S1x4096 : S1x4096x10.Reduces [2] S1x4096
  broadcasts_S1x4096x1_S1x4096x10 : S1x4096x1.Broadcasts S1x4096x10
  shapeCasts_S1x1_S_ : S1x1.ShapeCasts S_
  shapeCasts_S1x262144x64_S262144x64 : S1x262144x64.ShapeCasts S262144x64
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  reducesTo_S4096_S_d0 : S4096.ReducesTo [0] S_
  gather_S262144x64_S4096x1_S4096x64_1_0_n_n_0_1_164_wf : GatherDims.WF S262144x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S1x262144x3.size a
  hwx0_0 : ∀ i : grid0.Coords, EltTy.bits .f32 = 32 ∨ (Rect.block (s := S1x262144x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S1x262144x3.size a
  hwx0_1 : ∀ i : grid0.Coords, EltTy.bits .f32 = 32 ∨ (Rect.block (s := S1x262144x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x10.size a ≤ S1x262144x10.size a
  hwx0_2 : ∀ i : grid0.Coords, EltTy.bits .f32 = 32 ∨ (Rect.block (s := S1x262144x10) S1x4096x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x10.size a ≤ S1x262144x10.size a
  hwx0_3 : ∀ i : grid0.Coords, EltTy.bits .f32 = 32 ∨ (Rect.block (s := S1x262144x10) S1x4096x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def gather_S262144x64_S4096x1_S4096x64_1_0_n_n_0_1_164 : GatherDims S262144x64 S4096x1 S4096x64 where
  offsetDims := [1]
  collapsedSliceDims := [0]
  operandBatchingDims := []
  startIndicesBatchingDims := []
  startIndexMap := [0]
  indexVectorDim := 1
  sliceSizes := ![1, 64]
  wf := gather_S262144x64_S4096x1_S4096x64_1_0_n_n_0_1_164_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x4096x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x4096x10.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1x262144x3 : Shape := ⟨3, ![1, 262144, 3]⟩
abbrev S1x262144x10 : Shape := ⟨3, ![1, 262144, 10]⟩
abbrev S1x262144x64 : Shape := ⟨3, ![1, 262144, 64]⟩
abbrev S4096 : Shape := ⟨1, ![4096]⟩
abbrev S_ : Shape := ⟨0, ![]⟩
abbrev S1x262144 : Shape := ⟨2, ![1, 262144]⟩
abbrev S1x262144x1 : Shape := ⟨3, ![1, 262144, 1]⟩
abbrev S4096x1 : Shape := ⟨2, ![4096, 1]⟩
abbrev S1x4096x64 : Shape := ⟨3, ![1, 4096, 64]⟩

abbrev nBuf : Space → Nat
  | .hbm => 88
  | .vmem => 0
  | .smem => 0
  | _ => 0

abbrev bufTy : (tb : Table) → Fin (tcTables nBuf tb) → BufTy
  | .hbm, ⟨0, _⟩ => ⟨S1x262144x3, .f32⟩
  | .hbm, ⟨1, _⟩ => ⟨S1x262144x10, .f32⟩
  | .hbm, ⟨2, _⟩ => ⟨S1x262144x3, .f32⟩
  | .hbm, ⟨3, _⟩ => ⟨S1x262144x10, .f32⟩
  | .hbm, ⟨4, _⟩ => ⟨S1x262144x64, .f32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S1x262144x3, .f32⟩
  | .hbm, ⟨9, _⟩ => ⟨S1x262144x3, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x262144, .f32⟩
  | .hbm, ⟨16, _⟩ => ⟨S_, .f32⟩
  | .hbm, ⟨17, _⟩ => ⟨S1x262144, .f32⟩
  | .hbm, ⟨18, _⟩ => ⟨S1x262144, .f32⟩
  | .hbm, ⟨19, _⟩ => ⟨S1x262144x1, .f32⟩
  | .hbm, ⟨20, _⟩ => ⟨S1x262144x10, .f32⟩
  | .hbm, ⟨21, _⟩ => ⟨S1x262144x10, .f32⟩
  | .hbm, ⟨22, _⟩ => ⟨S1x262144x10, .f32⟩
  | .hbm, ⟨23, _⟩ => ⟨S_, .f32⟩
  | .hbm, ⟨24, _⟩ => ⟨S1x262144, .f32⟩
  | .hbm, ⟨25, _⟩ => ⟨S1x262144x1, .f32⟩
  | .hbm, ⟨26, _⟩ => ⟨S1x262144x1, .f32⟩
  | .hbm, ⟨27, _⟩ => ⟨S1x262144x10, .f32⟩
  | .hbm, ⟨28, _⟩ => ⟨S1x262144x10, .f32⟩
  | .hbm, ⟨29, _⟩ => ⟨S1x262144x10, .f32⟩
  | .hbm, ⟨30, _⟩ => ⟨S_, .f32⟩
  | .hbm, ⟨31, _⟩ => ⟨S1x262144, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S1x4096x64, .f32⟩
  | .hbm, ⟨46, _⟩ => ⟨S_, .i32⟩
  | .hbm, ⟨47, _⟩ => ⟨S4096, .i32⟩
  | .hbm, ⟨48, _⟩ => ⟨S4096, .i1⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S4096, .i32⟩
  | .hbm, ⟨53, _⟩ => ⟨S4096x1, .i32⟩
  | .hbm, ⟨54, _⟩ => ⟨S1x4096x64, .f32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .i32⟩
  | .hbm, ⟨62, _⟩ => ⟨S4096x1, .i32⟩
  | .hbm, ⟨63, _⟩ => ⟨S1x4096x64, .f32⟩
  | .hbm, ⟨64, _⟩ => ⟨S1x4096x64, .f32⟩
  | .hbm, ⟨65, _⟩ => ⟨S1x4096x64, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S1x4096x64, .f32⟩
  | .hbm, ⟨70, _⟩ => ⟨S1x4096x64, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S4096, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S1x262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v4 : Ref sig .tc := ⟨.hbm, 28, rfl⟩
abbrev main_v5 : Ref sig .tc := ⟨.hbm, 29, rfl⟩
abbrev main_cst_1 : Ref sig .tc := ⟨.hbm, 30, rfl⟩
abbrev main_v6 : Ref sig .tc := ⟨.hbm, 31, rfl⟩
abbrev main_cst_2 : Ref sig .tc := ⟨.hbm, 32, rfl⟩
abbrev main_v7 : Ref sig .tc := ⟨.hbm, 33, rfl⟩
abbrev main_cst_3 : Ref sig .tc := ⟨.hbm, 34, rfl⟩
abbrev main_v8 : Ref sig .tc := ⟨.hbm, 35, rfl⟩
abbrev main_v9 : Ref sig .tc := ⟨.hbm, 36, rfl⟩
abbrev main_c : Ref sig .tc := ⟨.hbm, 37, rfl⟩
abbrev main_v10 : Ref sig .tc := ⟨.hbm, 38, rfl⟩
abbrev main_v11 : Ref sig .tc := ⟨.hbm, 39, rfl⟩
abbrev main_c_4 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_5 : Ref sig .tc := ⟨.hbm, 46, rfl⟩
abbrev main_v17 : Ref sig .tc := ⟨.hbm, 47, rfl⟩
abbrev main_v18 : Ref sig .tc := ⟨.hbm, 48, rfl⟩
abbrev main_c_6 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_7 : Ref sig .tc := ⟨.hbm, 55, rfl⟩
abbrev main_v24 : Ref sig .tc := ⟨.hbm, 56, rfl⟩
abbrev main_v25 : Ref sig .tc := ⟨.hbm, 57, rfl⟩
abbrev main_c_8 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_9 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_10 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_call1_cst : Ref sig .tc := ⟨.hbm, 75, rfl⟩
abbrev main_call1_v0 : Ref sig .tc := ⟨.hbm, 76, rfl⟩
abbrev main_v40 : Ref sig .tc := ⟨.hbm, 77, rfl⟩
abbrev main_cst_11 : Ref sig .tc := ⟨.hbm, 78, rfl⟩
abbrev main_v41 : Ref sig .tc := ⟨.hbm, 79, rfl⟩
abbrev main_cst_12 : Ref sig .tc := ⟨.hbm, 80, rfl⟩
abbrev main_v42 : Ref sig .tc := ⟨.hbm, 81, rfl⟩
abbrev main_cst_13 : Ref sig .tc := ⟨.hbm, 82, rfl⟩
abbrev main_v43 : Ref sig .tc := ⟨.hbm, 83, rfl⟩
abbrev main_v44 : Ref sig .tc := ⟨.hbm, 84, rfl⟩
abbrev main_cst_14 : Ref sig .tc := ⟨.hbm, 85, rfl⟩
abbrev main_v45 : Ref sig .tc := ⟨.hbm, 86, rfl⟩
abbrev main_v46 : Ref sig .tc := ⟨.hbm, 87, rfl⟩

abbrev nD : Nat := 1
abbrev τ : Topo := Topo.v7x

variable {F : FTy → Type} [FloatOps F]

class Facts₀ : Prop where
  reducesTo_S1x262144x3_S_d0_1_2 : S1x262144x3.ReducesTo [0, 1, 2] S_
  h_S_ : 0 < S_.numel
  reducesTo_S1x262144x10_S1x262144_d2 : S1x262144x10.ReducesTo [2] S1x262144
  bcast_S_S1x262144 : S_.BroadcastsInDim S1x262144 (![] : Fin 0 → Fin S1x262144.rank)
  bcast_S1x262144_S1x262144x1_0_1 : S1x262144.BroadcastsInDim S1x262144x1 (![0, 1] : Fin 2 → Fin S1x262144x1.rank)
  bcast_S1x262144x1_S1x262144x10_0_1_2 : S1x262144x1.BroadcastsInDim S1x262144x10 (![0, 1, 2] : Fin 3 → Fin S1x262144x10.rank)
  reducesTo_S1x262144_S_d0_1 : S1x262144.ReducesTo [0, 1] S_
  bcast_S_S4096 : S_.BroadcastsInDim S4096 (![] : Fin 0 → Fin S4096.rank)
  bcast_S4096_S4096x1_0 : S4096.BroadcastsInDim S4096x1 (![0] : Fin 1 → Fin S4096x1.rank)
  reducesTo_S1x4096x64_S4096_d0_2 : S1x4096x64.ReducesTo [0, 2] S4096
  reducesTo_S4096_S_d0 : S4096.ReducesTo [0] S_
  gather_S1x262144x64_S4096x1_S1x4096x64_02_1_n_n_1_1_1164_wf : GatherDims.WF S1x262144x64 S4096x1 S1x4096x64 [0, 2] [1] [] [1] [] 1 ![1, 1, 64]

variable [Facts₀]

def gather_S1x262144x64_S4096x1_S1x4096x64_02_1_n_n_1_1_1164 : GatherDims S1x262144x64 S4096x1 S1x4096x64 where
  offsetDims := [0, 2]
  collapsedSliceDims := [1]
  operandBatchingDims := []
  startIndicesBatchingDims := []
  startIndexMap := [1]
  indexVectorDim := 1
  sliceSizes := ![1, 1, 64]
  wf := gather_S1x262144x64_S4096x1_S1x4096x64_02_1_n_n_1_1_1164_wf

class Facts : Prop extends Facts₀ where

variable [Facts]
-- ==== Proof.PointValues.lean ====
/-
  What one grid point leaves behind.

  The kernel keeps two running totals in scratch, one cell each: the squared error and the target-weighted
  log-probability.  At every grid point it adds the point's tile sum to each: the new squared-error total is the body's
  term  acc + Σ_tile (out − img)²  of the two image blocks and the old total, the new log-probability total the term
  acc + Σ_tile gt · logsoftmax(seg)  of the two class blocks and the old total.  At the first point the old totals are
  the zeros the body has just stored (it reads them back); at the last point the two outputs receive the new totals
  (the body reads them back from scratch).  Each statement below says that what a case of the body leaves in a scratch
  cell or an output cell — a single store through the whole cell, or the last of two — is that term of the point's
  input blocks, for any float instance.
-/
import proofs.«129317_j749_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.PointValues

open Cert.KernelIdeal Cert.KernelIdeal.Gen

variable {F : FTy → Type} [FloatOps F]

/-- A cell's, and a block's, zero offsets. -/
theorem hz : (![0, 0] : Fin 2 → Nat) = fun _ => 0 := funext fun a => by fin_cases a <;> rfl
theorem hz3 : (![0, 0, 0] : Fin 3 → Nat) = fun _ => 0 := funext fun a => by fin_cases a <;> rfl

/-! ## A middle point: the old totals plus the tile's sums -/

theorem sq_B (c : Dev nD) (i : grid0.Coords) (a1 : Memref sig .tc .vmem S1x4096x3 .f32) (h1 : a1.IsWhole) (a2 : Memref sig .tc .vmem S1x4096x3 .f32) (h2 : a2.IsWhole) (a3 : Memref sig .tc .vmem S1x4096x10 .f32) (h3 : a3.IsWhole) (a4 : Memref sig .tc .vmem S1x4096x10 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc0 : ¬cond0_0 i) (hc1 : ¬cond0_1 i) (x0 x1 : Vec F S1x4096x3 .f32) (x2 x3 : Vec F S1x4096x10 .f32) (xs0 xs1 : Vec F S1x1 .f32) :
    sout0_B_0 c i a1 h1 a2 h2 a3 h3 a4 h4 a5 h5 a6 h6 a7 h7 a8 h8 hc0 hc1 x0 x1 x2 x3 xs0 xs1 = k0_pay4 x1 x0 xs0 := by
  unfold sout0_B_0
  rw [View.read_writes_eq_canon _ _ _ (scover0_B_0 c i a1 h1 a2 h2 a3 h3 a4 h4 a5 h5 a6 h6 a7 h7 a8 h8 hc0 hc1 x0 x1 x2 x3 xs0 xs1)]
  unfold kernelRun0_B
  dsimp only
  sl_unfold_words
  rw [View.canon_unit_zero hz]
  simp only [View.readAt_eq_ld, h1.read_unread, h2.read_unread, h3.read_unread, h4.read_unread, h7.read_unread, h8.read_unread,
    View.ld_unit_zero (S := S1x4096x3) hz3, View.ld_unit_zero (S := S1x4096x10) hz3, View.ld_unit_zero (S := S1x1) hz]

theorem ce_B (c : Dev nD) (i : grid0.Coords) (a1 : Memref sig .tc .vmem S1x4096x3 .f32) (h1 : a1.IsWhole) (a2 : Memref sig .tc .vmem S1x4096x3 .f32) (h2 : a2.IsWhole) (a3 : Memref sig .tc .vmem S1x4096x10 .f32) (h3 : a3.IsWhole) (a4 : Memref sig .tc .vmem S1x4096x10 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc0 : ¬cond0_0 i) (hc1 : ¬cond0_1 i) (x0 x1 : Vec F S1x4096x3 .f32) (x2 x3 : Vec F S1x4096x10 .f32) (xs0 xs1 : Vec F S1x1 .f32) :
    sout0_B_1 c i a1 h1 a2 h2 a3 h3 a4 h4 a5 h5 a6 h6 a7 h7 a8 h8 hc0 hc1 x0 x1 x2 x3 xs0 xs1 = k0_pay1 (k0_pay5 x3 x2) xs1 := by
  unfold sout0_B_1
  rw [View.read_writes_eq_canon _ _ _ (scover0_B_1 c i a1 h1 a2 h2 a3 h3 a4 h4 a5 h5 a6 h6 a7 h7 a8 h8 hc0 hc1 x0 x1 x2 x3 xs0 xs1)]
  unfold kernelRun0_B
  dsimp only
  sl_unfold_words
  rw [View.canon_unit_zero hz]
  simp only [View.readAt_eq_ld, h1.read_unread, h2.read_unread, h3.read_unread, h4.read_unread, h7.read_unread, h8.read_unread,
    View.ld_unit_zero (S := S1x4096x3) hz3, View.ld_unit_zero (S := S1x4096x10) hz3, View.ld_unit_zero (S := S1x1) hz]

/-! ## The last point: the same totals, and the outputs receive them -/

theorem sq_C (c : Dev nD) (i : grid0.Coords) (a1 : Memref sig .tc .vmem S1x4096x3 .f32) (h1 : a1.IsWhole) (a2 : Memref sig .tc .vmem S1x4096x3 .f32) (h2 : a2.IsWhole) (a3 : Memref sig .tc .vmem S1x4096x10 .f32) (h3 : a3.IsWhole) (a4 : Memref sig .tc .vmem S1x4096x10 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc0 : ¬cond0_0 i) (hc1 : cond0_1 i) (x0 x1 : Vec F S1x4096x3 .f32) (x2 x3 : Vec F S1x4096x10 .f32) (xs0 xs1 : Vec F S1x1 .f32) :
    sout0_C_0 c i a1 h1 a2 h2 a3 h3 a4 h4 a5 h5 a6 h6 a7 h7 a8 h8 hc0 hc1 x0 x1 x2 x3 xs0 xs1 = k0_pay4 x1 x0 xs0 := by
  unfold sout0_C_0
  rw [View.read_writes_eq_canon _ _ _ (scover0_C_0 c i a1 h1 a2 h2 a3 h3 a4 h4 a5 h5 a6 h6 a7 h7 a8 h8 hc0 hc1 x0 x1 x2 x3 xs0 xs1)]
  unfold kernelRun0_C
  dsimp only
  sl_unfold_words
  rw [View.canon_unit_zero hz]
  simp only [View.readAt_eq_ld, h1.read_unread, h2.read_unread, h3.read_unread, h4.read_unread, h7.read_unread, h8.read_unread,
    View.ld_unit_zero (S := S1x4096x3) hz3, View.ld_unit_zero (S := S1x4096x10) hz3, View.ld_unit_zero (S := S1x1) hz]

theorem ce_C (c : Dev nD) (i : grid0.Coords) (a1 : Memref sig .tc .vmem S1x4096x3 .f32) (h1 : a1.IsWhole) (a2 : Memref sig .tc .vmem S1x4096x3 .f32) (h2 : a2.IsWhole) (a3 : Memref sig .tc .vmem S1x4096x10 .f32) (h3 : a3.IsWhole) (a4 : Memref sig .tc .vmem S1x4096x10 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc0 : ¬cond0_0 i) (hc1 : cond0_1 i) (x0 x1 : Vec F S1x4096x3 .f32) (x2 x3 : Vec F S1x4096x10 .f32) (xs0 xs1 : Vec F S1x1 .f32) :
    sout0_C_1 c i a1 h1 a2 h2 a3 h3 a4 h4 a5 h5 a6 h6 a7 h7 a8 h8 hc0 hc1 x0 x1 x2 x3 xs0 xs1 = k0_pay1 (k0_pay5 x3 x2) xs1 := by
  unfold sout0_C_1
  rw [View.read_writes_eq_canon _ _ _ (scover0_C_1 c i a1 h1 a2 h2 a3 h3 a4 h4 a5 h5 a6 h6 a7 h7 a8 h8 hc0 hc1 x0 x1 x2 x3 xs0 xs1)]
  unfold kernelRun0_C
  dsimp only
  sl_unfold_words
  rw [View.canon_unit_zero hz]
  simp only [View.readAt_eq_ld, h1.read_unread, h2.read_unread, h3.read_unread, h4.read_unread, h7.read_unread, h8.read_unread,
    View.ld_unit_zero (S := S1x4096x3) hz3, View.ld_unit_zero (S := S1x4096x10) hz3, View.ld_unit_zero (S := S1x1) hz]

theorem out_sq_C (c : Dev nD) (i : grid0.Coords) (a1 : Memref sig .tc .vmem S1x4096x3 .f32) (h1 : a1.IsWhole) (a2 : Memref sig .tc .vmem S1x4096x3 .f32) (h2 : a2.IsWhole) (a3 : Memref sig .tc .vmem S1x4096x10 .f32) (h3 : a3.IsWhole) (a4 : Memref sig .tc .vmem S1x4096x10 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc0 : ¬cond0_0 i) (hc1 : cond0_1 i) (x0 x1 : Vec F S1x4096x3 .f32) (x2 x3 : Vec F S1x4096x10 .f32) (xs0 xs1 : Vec F S1x1 .f32) :
    out0_C_4 c i a1 h1 a2 h2 a3 h3 a4 h4 a5 h5 a6 h6 a7 h7 a8 h8 hc0 hc1 x0 x1 x2 x3 xs0 xs1 = k0_pay4 x1 x0 xs0 := by
  unfold out0_C_4
  rw [View.read_writes_eq_canon _ _ _ (cover0_C_4 c i a1 h1 a2 h2 a3 h3 a4 h4 a5 h5 a6 h6 a7 h7 a8 h8 hc0 hc1 x0 x1 x2 x3 xs0 xs1)]
  unfold kernelRun0_C
  dsimp only
  sl_unfold_words
  rw [View.canon_unit_zero hz, View.readCov_unit_zero (S := S1x1) _ hz]
  simp only [View.readAt_eq_ld, h1.read_unread, h2.read_unread, h3.read_unread, h4.read_unread, h7.read_unread, h8.read_unread,
    View.ld_unit_zero (S := S1x4096x3) hz3, View.ld_unit_zero (S := S1x4096x10) hz3, View.ld_unit_zero (S := S1x1) hz]

theorem out_ce_C (c : Dev nD) (i : grid0.Coords) (a1 : Memref sig .tc .vmem S1x4096x3 .f32) (h1 : a1.IsWhole) (a2 : Memref sig .tc .vmem S1x4096x3 .f32) (h2 : a2.IsWhole) (a3 : Memref sig .tc .vmem S1x4096x10 .f32) (h3 : a3.IsWhole) (a4 : Memref sig .tc .vmem S1x4096x10 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc0 : ¬cond0_0 i) (hc1 : cond0_1 i) (x0 x1 : Vec F S1x4096x3 .f32) (x2 x3 : Vec F S1x4096x10 .f32) (xs0 xs1 : Vec F S1x1 .f32) :
    out0_C_5 c i a1 h1 a2 h2 a3 h3 a4 h4 a5 h5 a6 h6 a7 h7 a8 h8 hc0 hc1 x0 x1 x2 x3 xs0 xs1 = k0_pay1 (k0_pay5 x3 x2) xs1 := by
  unfold out0_C_5
  rw [View.read_writes_eq_canon _ _ _ (cover0_C_5 c i a1 h1 a2 h2 a3 h3 a4 h4 a5 h5 a6 h6 a7 h7 a8 h8 hc0 hc1 x0 x1 x2 x3 xs0 xs1)]
  unfold kernelRun0_C
  dsimp only
  sl_unfold_words
  rw [View.canon_unit_zero hz, View.readCov_unit_zero (S := S1x1) _ hz]
  simp only [View.readAt_eq_ld, h1.read_unread, h2.read_unread, h3.read_unread, h4.read_unread, h7.read_unread, h8.read_unread,
    View.ld_unit_zero (S := S1x4096x3) hz3, View.ld_unit_zero (S := S1x4096x10) hz3, View.ld_unit_zero (S := S1x1) hz]

/-! ## The first point: the totals start from the zeros just stored -/

theorem sq_A (c : Dev nD) (i : grid0.Coords) (a1 : Memref sig .tc .vmem S1x4096x3 .f32) (h1 : a1.IsWhole) (a2 : Memref sig .tc .vmem S1x4096x3 .f32) (h2 : a2.IsWhole) (a3 : Memref sig .tc .vmem S1x4096x10 .f32) (h3 : a3.IsWhole) (a4 : Memref sig .tc .vmem S1x4096x10 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc0 : cond0_0 i) (hc1 : ¬cond0_1 i) (x0 x1 : Vec F S1x4096x3 .f32) (x2 x3 : Vec F S1x4096x10 .f32) :
    sout0_A_0 c i a1 h1 a2 h2 a3 h3 a4 h4 a5 h5 a6 h6 a7 h7 a8 h8 hc0 hc1 x0 x1 x2 x3 = k0_pay4 x1 x0 k0_pay2 := by
  unfold sout0_A_0
  rw [View.read_writes_eq_canon _ _ _ (scover0_A_0 c i a1 h1 a2 h2 a3 h3 a4 h4 a5 h5 a6 h6 a7 h7 a8 h8 hc0 hc1 x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h7.read_unread, h8.read_unread,
    View.ld_unit_zero (S := S1x4096x3) hz3, View.ld_unit_zero (S := S1x4096x10) hz3, View.ld_unit_zero (S := S1x1) hz]

theorem ce_A (c : Dev nD) (i : grid0.Coords) (a1 : Memref sig .tc .vmem S1x4096x3 .f32) (h1 : a1.IsWhole) (a2 : Memref sig .tc .vmem S1x4096x3 .f32) (h2 : a2.IsWhole) (a3 : Memref sig .tc .vmem S1x4096x10 .f32) (h3 : a3.IsWhole) (a4 : Memref sig .tc .vmem S1x4096x10 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc0 : cond0_0 i) (hc1 : ¬cond0_1 i) (x0 x1 : Vec F S1x4096x3 .f32) (x2 x3 : Vec F S1x4096x10 .f32) :
    sout0_A_1 c i a1 h1 a2 h2 a3 h3 a4 h4 a5 h5 a6 h6 a7 h7 a8 h8 hc0 hc1 x0 x1 x2 x3 = k0_pay1 (k0_pay5 x3 x2) k0_pay3 := by
  unfold sout0_A_1
  rw [View.read_writes_eq_canon _ _ _ (scover0_A_1 c i a1 h1 a2 h2 a3 h3 a4 h4 a5 h5 a6 h6 a7 h7 a8 h8 hc0 hc1 x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h7.read_unread, h8.read_unread,
    View.ld_unit_zero (S := S1x4096x3) hz3, View.ld_unit_zero (S := S1x4096x10) hz3, View.ld_unit_zero (S := S1x1) hz]

end Cert.KernelIdeal.PointValues

end
-- ==== Proof.RunningTotals.lean ====
/-
  The two running totals over the grid, and that they are what the kernel carries.

  After the first grid point each total is the body's per-point term over the zero just stored; after every later point
  it is that term over the total the point before left.  By induction on the point, these are the contents of the two
  scratch cells after each point; and at the last point — the only one at which the outputs are written — the two output
  cells receive them.
-/
import proofs.«129317_j749_2_alg».proof.Proof.PointValues

noncomputable section

open Idealize.ShloMosaic Idealize.ShloMosaic.TcCoe Idealize.SL.Sem

namespace Cert.KernelIdeal.RunningTotals

open Cert.KernelIdeal Cert.KernelIdeal.Gen Cert.KernelIdeal.PointValues

variable {F : FTy → Type} [FloatOps F]
variable (m : (ℓ : Loc nD τ sig) → Buf (Elt F) ℓ)

/-- The squared-error total and the log-probability total after point n: the per-point terms of the point's four input
    blocks, over the zeros at the first point and over the point before's totals afterwards. -/
def totals (c : Dev nD) : (n : ℕ) → n < cfg0.N → Vec F S1x1 .f32 × Vec F S1x1 .f32
  | 0, h =>
    (k0_pay4 (iblk m c 1 ⟨0, h⟩) (iblk m c 0 ⟨0, h⟩) k0_pay2,
     k0_pay1 (k0_pay5 (iblk m c 3 ⟨0, h⟩) (iblk m c 2 ⟨0, h⟩)) k0_pay3)
  | n + 1, h =>
    (k0_pay4 (iblk m c 1 ⟨n + 1, h⟩) (iblk m c 0 ⟨n + 1, h⟩) (totals c n (Nat.lt_of_succ_lt h)).1,
     k0_pay1 (k0_pay5 (iblk m c 3 ⟨n + 1, h⟩) (iblk m c 2 ⟨n + 1, h⟩)) (totals c n (Nat.lt_of_succ_lt h)).2)

/-- The scratch cells after point n hold the two totals. -/
theorem scratch_eq (c : Dev nD) : ∀ (n : ℕ) (h : n < cfg0.N),
    (outsAt0 m c n h).2.2.1 = (totals m c n h).1 ∧ (outsAt0 m c n h).2.2.2 = (totals m c n h).2
  | 0, h => by
    have h0 : (⟨0, h⟩ : Fin cfg0.N).val % 64 = 0 := rfl
    have h1 : ¬(⟨0, h⟩ : Fin cfg0.N).val % 64 = 63 :=
      fun hh => absurd (show (0 : ℕ) % 64 = 63 from hh) (by decide)
    have e := outsAt0_A m c ⟨0, h⟩ h0 h1
    exact ⟨(congrArg (fun p => p.2.2.1) e).trans
        (sq_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩)),
      (congrArg (fun p => p.2.2.2) e).trans
        (ce_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩))⟩
  | n + 1, h => by
    have hN : cfg0.N = 64 := N_0
    have h0 : ¬(⟨n + 1, h⟩ : Fin cfg0.N).val % 64 = 0 := by dsimp only; omega
    obtain ⟨ih1, ih2⟩ := scratch_eq c n (Nat.lt_of_succ_lt h)
    by_cases h1 : (⟨n + 1, h⟩ : Fin cfg0.N).val % 64 = 63
    · have e := outsAt0_C m c ⟨n + 1, h⟩ h0 h1
      refine ⟨(congrArg (fun p => p.2.2.1) e).trans
          ((sq_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩)
            (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2).trans ?_),
        (congrArg (fun p => p.2.2.2) e).trans
          ((ce_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩)
            (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2).trans ?_)⟩
      · show k0_pay4 _ _ (outsAt0 m c n _).2.2.1 = k0_pay4 _ _ (totals m c n _).1
        rw [ih1]
      · show k0_pay1 _ (outsAt0 m c n _).2.2.2 = k0_pay1 _ (totals m c n _).2
        rw [ih2]
    · have e := outsAt0_B m c ⟨n + 1, h⟩ h0 h1
      refine ⟨(congrArg (fun p => p.2.2.1) e).trans
          ((sq_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩)
            (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2).trans ?_),
        (congrArg (fun p => p.2.2.2) e).trans
          ((ce_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩)
            (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2).trans ?_)⟩
      · show k0_pay4 _ _ (outsAt0 m c n _).2.2.1 = k0_pay4 _ _ (totals m c n _).1
        rw [ih1]
      · show k0_pay1 _ (outsAt0 m c n _).2.2.2 = k0_pay1 _ (totals m c n _).2
        rw [ih2]

/-- At a last point (its number is 63 modulo 64) the two output cells receive the two totals. -/
theorem outputs_eq (c : Dev nD) (n : ℕ) (h : n + 1 < cfg0.N) (h1 : (⟨n + 1, h⟩ : Fin cfg0.N).val % 64 = 63) :
    (outsAt0 m c (n + 1) h).1 = (totals m c (n + 1) h).1 ∧ (outsAt0 m c (n + 1) h).2.1 = (totals m c (n + 1) h).2 := by
  have hN : cfg0.N = 64 := N_0
  have h0 : ¬(⟨n + 1, h⟩ : Fin cfg0.N).val % 64 = 0 := by dsimp only; omega
  obtain ⟨ih1, ih2⟩ := scratch_eq m c n (Nat.lt_of_succ_lt h)
  have e := outsAt0_C m c ⟨n + 1, h⟩ h0 h1
  refine ⟨(congrArg (fun p => p.1) e).trans
      ((out_sq_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩)
        (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2).trans ?_),
    (congrArg (fun p => p.2.1) e).trans
      ((out_ce_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩)
        (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2).trans ?_)⟩
  · show k0_pay4 _ _ (outsAt0 m c n _).2.2.1 = k0_pay4 _ _ (totals m c n _).1
    rw [ih1]
  · show k0_pay1 _ (outsAt0 m c n _).2.2.2 = k0_pay1 _ (totals m c n _).2
    rw [ih2]

end Cert.KernelIdeal.RunningTotals

end
-- ==== Proof.KernelOutputs.lean ====
/-
  The two result arrays after the region.

  Each of the two output windows has a single block, the whole one-cell array, whose index never moves; the pipeline
  writes it back once, after the last grid point.  What the body left in its staging cell at that point is the running
  total, so the result array ends holding the total after the last point.
-/
import proofs.«129317_j749_2_alg».proof.Proof.RunningTotals
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Outputs

open Cert.KernelIdeal Cert.KernelIdeal.Gen Cert.KernelIdeal.RunningTotals

variable {F : FTy → Type} [FloatOps F]
variable (m : (ℓ : Loc nD τ sig) → Buf (Elt F) ℓ)

/-- The last of the 64 grid points. -/
theorem hlast : 63 < cfg0.N := by have hN : cfg0.N = 64 := N_0; omega
abbrev tLast : Fin cfg0.N := ⟨63, hlast⟩

/-- What result array 0 holds after the region: the sq total after the last point. -/
abbrev sqOut (c : Dev nD) : Buf (Elt F) ((c : Thread nD τ).loc main_v0_0) := (totals m c 63 hlast).1

/-- The one write-back of window 4, at the last point, writes it: block (0, 0) of the one-cell array read through zero
    offsets is the array. -/
theorem flushed4_eq (c : Dev nD) (t : Fin cfg0.N) (hf : (cfg0.win 4).flush t = true) :
    (dats m 0 c).flushed 4 t = ((cfg0.win 4).blk t).view.read (Elt F) (sqOut m c) := by
  have hN : cfg0.N = 64 := N_0
  have h63 : t.val = 63 := by have := (flush0_4 t).mp hf; have := t.isLt; omega
  obtain rfl : t = tLast := Fin.ext h63
  show (cfg0.win 4).cut (grid0.coords tLast) ((dats m 0 c).after 4 tLast) = _
  rw [after0_4, (outputs_eq m c 62 hlast rfl).1]
  have hz' : (fun a => win0_4.index tLast a * main_v0_0.ty.shape.size a) = fun _ => 0 :=
    funext fun a => by fin_cases a <;> decide +kernel
  exact (Memref.read_access_unit_zero (Elt F) main_v0_0 hz' (fun a => by rw [congrFun hz' a]; simp) (sqOut m c)).symm

/-- So result array 0 ends holding that total: the last point's block covers its one cell. -/
theorem final4 (c : Dev nD) : (dats m 0 c).arrAt 4 cfg0.N = sqOut m c :=
  (dats m 0 c).arrAt_eq_of_cover 4 (sqOut m c) (flushed4_eq m c) fun i =>
    ⟨tLast, (flush0_4 tLast).mpr rfl, by
      show i ∈ ((View.whole main_v0_0).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [show win0_4.index tLast 0 * win0_4.size 0 = 0 from by decide +kernel,
          show win0_4.xsize (grid0.coords tLast) 0 = 1 from by decide +kernel]; omega
      | ⟨1, _⟩ =>
        show win0_4.index tLast 1 * win0_4.size 1 ≤ (i 1 : Nat)
          ∧ (i 1 : Nat) < win0_4.index tLast 1 * win0_4.size 1 + win0_4.xsize (grid0.coords tLast) 1
        rw [show win0_4.index tLast 1 * win0_4.size 1 = 0 from by decide +kernel,
          show win0_4.xsize (grid0.coords tLast) 1 = 1 from by decide +kernel]; omega⟩

/-- What result array 1 holds after the region: the ce total after the last point. -/
abbrev ceOut (c : Dev nD) : Buf (Elt F) ((c : Thread nD τ).loc main_v0_1) := (totals m c 63 hlast).2

/-- The one write-back of window 5, at the last point, writes it: block (0, 0) of the one-cell array read through zero
    offsets is the array. -/
theorem flushed5_eq (c : Dev nD) (t : Fin cfg0.N) (hf : (cfg0.win 5).flush t = true) :
    (dats m 0 c).flushed 5 t = ((cfg0.win 5).blk t).view.read (Elt F) (ceOut m c) := by
  have hN : cfg0.N = 64 := N_0
  have h63 : t.val = 63 := by have := (flush0_5 t).mp hf; have := t.isLt; omega
  obtain rfl : t = tLast := Fin.ext h63
  show (cfg0.win 5).cut (grid0.coords tLast) ((dats m 0 c).after 5 tLast) = _
  rw [after0_5, (outputs_eq m c 62 hlast rfl).2]
  have hz' : (fun a => win0_5.index tLast a * main_v0_1.ty.shape.size a) = fun _ => 0 :=
    funext fun a => by fin_cases a <;> decide +kernel
  exact (Memref.read_access_unit_zero (Elt F) main_v0_1 hz' (fun a => by rw [congrFun hz' a]; simp) (ceOut m c)).symm

/-- So result array 1 ends holding that total: the last point's block covers its one cell. -/
theorem final5 (c : Dev nD) : (dats m 0 c).arrAt 5 cfg0.N = ceOut m c :=
  (dats m 0 c).arrAt_eq_of_cover 5 (ceOut m c) (flushed5_eq m c) fun i =>
    ⟨tLast, (flush0_5 tLast).mpr rfl, by
      show i ∈ ((View.whole main_v0_1).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index tLast 0 * win0_5.size 0 ≤ (i 0 : Nat)
          ∧ (i 0 : Nat) < win0_5.index tLast 0 * win0_5.size 0 + win0_5.xsize (grid0.coords tLast) 0
        rw [show win0_5.index tLast 0 * win0_5.size 0 = 0 from by decide +kernel,
          show win0_5.xsize (grid0.coords tLast) 0 = 1 from by decide +kernel]; omega
      | ⟨1, _⟩ =>
        show win0_5.index tLast 1 * win0_5.size 1 ≤ (i 1 : Nat)
          ∧ (i 1 : Nat) < win0_5.index tLast 1 * win0_5.size 1 + win0_5.xsize (grid0.coords tLast) 1
        rw [show win0_5.index tLast 1 * win0_5.size 1 = 0 from by decide +kernel,
          show win0_5.xsize (grid0.coords tLast) 1 = 1 from by decide +kernel]; omega⟩

end Cert.KernelIdeal.Outputs

end
-- ==== Proof.LibGatherScatter.lean ====
/-
  Gathers of rows and of entries by an array of start indices, the scatter-add that accumulates rows or entries at
  such indices, and two facts about sums of extended reals.

  A row gather of a matrix x : [N, C] at start indices idx : [R, 1] has result row e equal to the row of x whose number
  is idx[e, 0] read as a signed integer and clamped into [0, N − 1]; a vector gather reads one entry the same way.
  A scatter of updates : [R, C] into an operand [N, C] at the same kind of indices sends update element (e, f) to operand
  element (n, g) exactly when idx[e, 0], read signed and NOT clamped, is n, and f = g; a start index outside [0, N − 1]
  sends its update nowhere.  Multiplication by a non-negative real distributes over a finite sum of extended reals, and
  a sum of ones over a finite set is the number of its elements.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Lib.GatherScatter

open Idealize.ShloMosaic Idealize.ShloMosaic.ValueIdx

/-! ## Row gather: x[idx] of a matrix -/

section Gather
variable {α : Type}

/-- The dimension numbers of a row gather: operand [N, C], start indices [R, 1] (the index vector on axis 1, of length
    one, naming operand axis 0), result [R, C]; operand axis 0 is collapsed (slice size 1), operand axis 1 is the result's
    offset axis 1 (slice size C). -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather read at (e, f): entry f of the operand's row idx[e, 0], the start index read signed and clamped into
    [0, N − 1]. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowsDims N R C wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ =>
    show (rowsDims N R C wf).start (ix2 e f) idx 0 + (rowsDims N R C wf).batchCoord (ix2 e f) 0
      + (rowsDims N R C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 e f) ⟨List.idxOf (0 : Fin 2) (rowsDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N R C wf).start (ix2 e f) idx 1 + (rowsDims N R C wf).batchCoord (ix2 e f) 1
      + (rowsDims N R C wf).offCoord (ix2 e f) 1 = _
    rw [GatherDims.batchCoord_eq_zero _ _ _ List.not_mem_nil]
    have hst : (rowsDims N R C wf).start (ix2 e f) idx 1 = 0 := by
      unfold GatherDims.start
      rw [dif_neg (show (1 : Fin 2) ∉ (rowsDims N R C wf).startIndexMap from
        (by decide : (1 : Fin 2) ∉ ([0] : List (Fin 2))))]
    rw [hst]
    simp only [Nat.add_zero, Nat.zero_add]
    rfl

/-! ## Vector gather: x[idx] of a flat array at a column of start indices -/

/-- The dimension numbers of a vector gather: operand [N], start indices [R, 1] (the index vector on axis 1, of length
    one), result [R]; the operand's one axis is collapsed. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector gather read at e: the operand's entry idx[e, 0], the start index read signed and clamped into
    [0, N − 1]. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecDims N R wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecDims N R wf).start (ix1 e) idx 0 + (vecDims N R wf).batchCoord (ix1 e) 0
    + (vecDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 e) ⟨List.idxOf (0 : Fin 1) (vecDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Where a scatter's update lands -/

section Scatter

/-- An update element lands at operand element i exactly when, on every operand axis, the window's start (read signed,
    not clamped) plus the window coordinate is i's coordinate; a sum outside the operand's extent is no coordinate, so the
    update is then dropped. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      intro a
      have h1 := congrArg Fin.val (congrFun (Option.some.inj h) a)
      simp only at h1
      have h2 := hh a
      omega
    · exact absurd h (by simp)
  · intro h
    have hh : ∀ a, 0 ≤ d.start j idx a + (d.window j a : Int) ∧ d.start j idx a + (d.window j a : Int) < s.size a := by
      intro a
      have h1 := h a
      have h2 := (i a).isLt
      omega
    rw [dif_pos hh]
    congr 1
    funext a
    refine Fin.ext ?_
    have h1 := h a
    simp only
    omega

/-- The dimension numbers of a row scatter: operand [N, C], scatter indices [R, 1] (the index vector on axis 1, of length
    one, naming operand axis 0), updates [R, C]; the updates' axis 1 is the window axis and goes to operand axis 1, operand
    axis 0 is an inserted window axis. -/
abbrev rowsScatter (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Update element (e, f) of a row scatter lands at operand element (n, g) exactly when the scatter index idx[e, 0], read
    signed, is n, and the columns agree. -/
theorem rows_resultIdx?_eq_some_iff {N R C w : Nat}
    (wf : ScatterDims.WF ⟨2, ![N, C]⟩ ⟨2, ![R, 1]⟩ ⟨2, ![R, C]⟩ [1] [0] [0] 1)
    (idx : IVec ⟨2, ![R, 1]⟩ w) (e : Fin R) (f : Fin C) (n : Fin N) (g : Fin C) :
    (rowsScatter N R C wf).resultIdx? (ix2 e f) idx = some (ix2 n g)
      ↔ (idx (ix2 e (0 : Fin 1))).toInt = (n.val : Int) ∧ f = g := by
  have hs0 : (rowsScatter N R C wf).start (ix2 e f) idx 0 = (idx (ix2 e (0 : Fin 1))).toInt := by
    unfold ScatterDims.start
    rw [dif_pos (show (0 : Fin 2) ∈ (rowsScatter N R C wf).scatterDimsToOperandDims from List.mem_singleton.mpr rfl)]
    have hsi : (rowsScatter N R C wf).siIdx (ix2 e f)
        ⟨List.idxOf (0 : Fin 2) (rowsScatter N R C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowsScatter N R C wf).start (ix2 e f) idx 1 = 0 := by
    unfold ScatterDims.start
    rw [dif_neg (show (1 : Fin 2) ∉ (rowsScatter N R C wf).scatterDimsToOperandDims from
      (by decide : (1 : Fin 2) ∉ ([0] : List (Fin 2))))]
  have hw0 : (rowsScatter N R C wf).window (ix2 e f) 0 = 0 := by
    unfold ScatterDims.window
    rw [dif_neg (show (0 : Fin 2) ∉ (rowsScatter N R C wf).sKept from
      (by decide : (0 : Fin 2) ∉ (List.finRange 2).filter (· ∉ ([0] : List (Fin 2)))))]
  have hw1 : (rowsScatter N R C wf).window (ix2 e f) 1 = f.val := by
    unfold ScatterDims.window
    rw [dif_pos (show (1 : Fin 2) ∈ (rowsScatter N R C wf).sKept from
      (by decide : (1 : Fin 2) ∈ (List.finRange 2).filter (· ∉ ([0] : List (Fin 2)))))]
    rfl
  rw [resultIdx?_eq_some_iff, Fin.forall_fin_two, hs0, hs1, hw0, hw1]
  show (idx (ix2 e (0 : Fin 1))).toInt + ((0 : Nat) : Int) = (n.val : Int) ∧ (0 : Int) + (f.val : Int) = (g.val : Int) ↔ _
  constructor
  · rintro ⟨h0, h1⟩
    exact ⟨by omega, Fin.ext (by omega)⟩
  · rintro ⟨h0, rfl⟩
    exact ⟨by omega, by omega⟩

/-- The dimension numbers of a vector scatter: operand [N], scatter indices [R, 1] (the index vector on axis 1, of length
    one), updates [R]; no window axis, the operand's one axis is an inserted window axis. -/
abbrev vecScatter (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update element e of a vector scatter lands at operand element n exactly when the scatter index idx[e, 0], read signed,
    is n. -/
theorem vec_resultIdx?_eq_some_iff {N R w : Nat}
    (wf : ScatterDims.WF ⟨1, ![N]⟩ ⟨2, ![R, 1]⟩ ⟨1, ![R]⟩ [] [0] [0] 1)
    (idx : IVec ⟨2, ![R, 1]⟩ w) (e : Fin R) (n : Fin N) :
    (vecScatter N R wf).resultIdx? (ix1 e) idx = some (ix1 n)
      ↔ (idx (ix2 e (0 : Fin 1))).toInt = (n.val : Int) := by
  have hs0 : (vecScatter N R wf).start (ix1 e) idx 0 = (idx (ix2 e (0 : Fin 1))).toInt := by
    unfold ScatterDims.start
    rw [dif_pos (show (0 : Fin 1) ∈ (vecScatter N R wf).scatterDimsToOperandDims from List.mem_singleton.mpr rfl)]
    have hsi : (vecScatter N R wf).siIdx (ix1 e)
        ⟨List.idxOf (0 : Fin 1) (vecScatter N R wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N R wf).window (ix1 e) 0 = 0 := by
    unfold ScatterDims.window
    rw [dif_neg (show (0 : Fin 1) ∉ (vecScatter N R wf).sKept from
      (by decide : (0 : Fin 1) ∉ (List.finRange 1).filter (· ∉ ([0] : List (Fin 1)))))]
  rw [resultIdx?_eq_some_iff, Fin.forall_fin_one, hs0, hw0]
  show (idx (ix2 e (0 : Fin 1))).toInt + ((0 : Nat) : Int) = (n.val : Int) ↔ _
  constructor
  · intro h; omega
  · intro h; omega

end Scatter

/-! ## Sums of extended reals -/

section Sums

/-- Multiplication by a non-negative real distributes over a finite sum of extended reals (it does not for a general
    extended real factor: ⊤ + ⊥ = ⊥ while a negative factor turns it round, and 0 · ⊤ = 0). -/
theorem sum_mul_coe_of_nonneg {ι : Type*} (s : Finset ι) (a : ι → EReal) {r : ℝ} (hr : 0 ≤ r) :
    (∑ j ∈ s, a j) * (r : EReal) = ∑ j ∈ s, a j * (r : EReal) := by
  classical
  induction s using Finset.induction_on with
  | empty => simp
  | insert k s hk ih =>
    rw [Finset.sum_insert hk, Finset.sum_insert hk,
      EReal.right_distrib_of_nonneg_of_ne_top (EReal.coe_nonneg.mpr hr) (EReal.coe_ne_top r), ih]

/-- The same with the sum started at zero, the form a scatter-add into a zero array takes. -/
theorem zero_add_sum_mul_coe_of_nonneg {ι : Type*} (s : Finset ι) (a : ι → EReal) {r : ℝ} (hr : 0 ≤ r) :
    ((0 : EReal) + ∑ j ∈ s, a j) * (r : EReal) = (0 : EReal) + ∑ j ∈ s, a j * (r : EReal) := by
  rw [zero_add, zero_add, sum_mul_coe_of_nonneg s a hr]

end Sums

end Cert.Lib.GatherScatter

end
-- ==== Proof.LibHostRead.lean ====
/-
  Host operations read at an index on the extended reals, for small ranks.

  A [1, 1] cell viewed as a scalar is its one entry.  The host's division, negation and square root act entry by entry.
  The host's sum adds the initial value to the exact sum: of a vector into a scalar it is init + Σ_e x[e]; of an [n, k]
  matrix over its columns it is, at row e, init + Σ_d x[e, d]; of a [1, n, k] array over its outer and last axes it is, at
  e, init + Σ_d x[0, e, d] (the outer axis has one entry).  A gather of rows out of a [1, N, C] array at a column of
  start indices, the outer and last axes kept whole, reads at (u, e, f) entry f of the row the start index idx[e, 0] names
  — read as a signed integer and clamped into [0, N − 1] — as the gather of rows out of an [N, C] matrix does.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Lib.HostRead

open Idealize.ShloMosaic Idealize.ShloMosaic.ValueIdx

/-! ## Indices -/

/-- A sum over the indices of a length-n vector is the sum over its n entries. -/
theorem sum_idx1 {M : Type*} [AddCommMonoid M] {n : Nat} (f : (⟨1, ![n]⟩ : Shape).Idx → M) :
    ∑ i, f i = ∑ e : Fin n, f (ix1 e) := by
  let e : (⟨1, ![n]⟩ : Shape).Idx ≃ Fin n :=
    { toFun := fun i => i 0
      invFun := ix1
      left_inv := fun i => (eq_ix1 i).symm
      right_inv := fun _ => rfl }
  rw [← Equiv.sum_comp e.symm f]
  rfl

section Layout
variable {α : Type}

/-- A [1, 1] cell viewed as a scalar reads its one entry: both have row-major position 0. -/
theorem shapeCast_11_scalar_apply (x : (⟨2, ![1, 1]⟩ : Shape).Idx → α)
    (h : (⟨2, ![1, 1]⟩ : Shape).ShapeCasts ⟨0, ![]⟩) (i : (⟨0, ![]⟩ : Shape).Idx) :
    shapeCast ⟨0, ![]⟩ x h i = x (ix2 (0 : Fin 1) (0 : Fin 1)) :=
  shapeCast_apply x h i _ (by
    rw [Shape.rowMajor_val_two]
    have h0 : ((⟨0, ![]⟩ : Shape).rowMajor i).val = 0 := Shape.rowMajorPi_zero _ _
    rw [h0]
    rfl)

end Layout

/-! ## Entry-by-entry operations -/

variable {φ : FTy}

theorem hostDivf_apply {s : Shape} (a b : FVec Ideal s φ) (i : s.Idx) : Host.divf a b i = Ideal.div (a i) (b i) := rfl
theorem hostNegf_apply {s : Shape} (a : FVec Ideal s φ) (i : s.Idx) : Host.negf a i = -(a i) := rfl
theorem hostSqrt_apply {s : Shape} (a : FVec Ideal s φ) (i : s.Idx) : Host.sqrt a i = Ideal.sqrt (a i) := rfl

/-! ## Host sums -/

/-- The host's sum of a vector into a scalar: the initial value plus the sum of the entries. -/
theorem hostReduceAdd_vec {n : ℕ} (x : FVec Ideal ⟨1, ![n]⟩ φ) (init : (⟨0, ![]⟩ : Shape).Idx → Ideal φ)
    (h : (⟨1, ![n]⟩ : Shape).ReducesTo [(0 : Fin 1)] ⟨0, ![]⟩) (hu : 0 < (⟨0, ![]⟩ : Shape).numel)
    (i : (⟨0, ![]⟩ : Shape).Idx) :
    Host.reduceAdd (F := Ideal) x init h hu i = init (Shape.Idx.first hu) + ∑ e : Fin n, x (ix1 e) := by
  simp only [Host.reduceAdd, Ideal.hostReduceAdd_def]
  rw [Ideal.hostReduceAdd_total h (fun b => b.elim0), sum_idx1]

/-- The host's sum of an [n, k] matrix over its columns, at row e: the initial value plus the sum of row e. -/
theorem hostReduceAdd_rows {n k : ℕ} (x : FVec Ideal ⟨2, ![n, k]⟩ φ) (init : (⟨0, ![]⟩ : Shape).Idx → Ideal φ)
    (h : (⟨2, ![n, k]⟩ : Shape).ReducesTo [(1 : Fin 2)] ⟨1, ![n]⟩) (hu : 0 < (⟨0, ![]⟩ : Shape).numel) (e : Fin n) :
    Host.reduceAdd (F := Ideal) x init h hu (ix1 e) = init (Shape.Idx.first hu) + ∑ d : Fin k, x (ix2 e d) := by
  have hr : (⟨2, ![n, k]⟩ : Shape).Reduces [(1 : Fin 2)] ⟨1, ![n]⟩ := ⟨h.1, Nat.one_pos, h.2⟩
  simp only [Host.reduceAdd, Ideal.hostReduceAdd_def]
  rw [Ideal.hostReduceAdd_single h hr]
  refine congrArg (_ + ·) (Finset.sum_congr rfl fun d _ => congrArg x ?_)
  funext a
  refine Fin.ext ?_
  match a with
  | ⟨0, _⟩ => rfl
  | ⟨1, _⟩ => rfl

/-- The host's sum of a [1, n, k] array over its outer and last axes, at e: the initial value plus Σ_d x[0, e, d]. -/
theorem hostReduceAdd_outer_last {n k : ℕ} (x : FVec Ideal ⟨3, ![1, n, k]⟩ φ) (init : (⟨0, ![]⟩ : Shape).Idx → Ideal φ)
    (h : (⟨3, ![1, n, k]⟩ : Shape).ReducesTo [(0 : Fin 3), (2 : Fin 3)] ⟨1, ![n]⟩) (hu : 0 < (⟨0, ![]⟩ : Shape).numel)
    (e : Fin n) :
    Host.reduceAdd (F := Ideal) x init h hu (ix1 e)
      = init (Shape.Idx.first hu) + ∑ d : Fin k, x (ix3 (0 : Fin 1) e d) := by
  simp only [Host.reduceAdd, Ideal.hostReduceAdd_def]
  unfold Ideal.hostReduceAdd
  refine congrArg (_ + ·) ?_
  have hdrop : ∀ i : (⟨3, ![1, n, k]⟩ : Shape).Idx, (h.drop i (0 : Fin 1)).val = (i (1 : Fin 3)).val := fun _ => rfl
  have hf : (Finset.univ.filter fun i : (⟨3, ![1, n, k]⟩ : Shape).Idx => h.drop i = ix1 e)
      = Finset.univ.map ⟨fun d : Fin k => ix3 (0 : Fin 1) e d, fun d d' hd => by
          have := congrFun hd (2 : Fin 3); exact this⟩ := by
    ext i
    simp only [Finset.mem_filter, Finset.mem_univ, true_and, Finset.mem_map, Function.Embedding.coeFn_mk]
    constructor
    · intro hi
      refine ⟨i (2 : Fin 3), ?_⟩
      funext a
      refine Fin.ext ?_
      match a with
      | ⟨0, h0⟩ =>
        have hlt : (i ⟨0, h0⟩).val < 1 := (i ⟨0, h0⟩).isLt
        show (0 : ℕ) = (i ⟨0, h0⟩).val
        omega
      | ⟨1, _⟩ =>
        have := congrArg Fin.val (congrFun hi (0 : Fin 1))
        rw [hdrop] at this
        exact this.symm
      | ⟨2, _⟩ => rfl
    · rintro ⟨d, rfl⟩
      funext b
      refine Fin.ext ?_
      match b with
      | ⟨0, _⟩ => exact hdrop _
  rw [hf, Finset.sum_map]
  rfl

/-! ## A gather of rows out of a [1, N, C] array -/

section Gather
variable {α : Type}

/-- The dimension numbers: operand [1, N, C], start indices [R, 1] (the index vector on axis 1, of length one, naming
    operand axis 1), result [1, R, C]; operand axis 1 is collapsed (slice size 1), operand axes 0 and 2 are the result's
    offset axes 0 and 2 (slice sizes 1 and C). -/
abbrev outerRowsDims (N R C : Nat)
    (wf : GatherDims.WF ⟨3, ![1, N, C]⟩ ⟨2, ![R, 1]⟩ ⟨3, ![1, R, C]⟩ [0, 2] [1] [] [1] [] 1 ![1, 1, C]) :
    GatherDims ⟨3, ![1, N, C]⟩ ⟨2, ![R, 1]⟩ ⟨3, ![1, R, C]⟩ where
  offsetDims := [0, 2]
  collapsedSliceDims := [1]
  operandBatchingDims := []
  startIndicesBatchingDims := []
  startIndexMap := [1]
  indexVectorDim := 1
  sliceSizes := ![1, 1, C]
  wf := wf

/-- That gather read at (u, e, f): entry f of the operand's row idx[e, 0], the start index read signed and clamped into
    [0, N − 1]. -/
theorem gather_outer_rows_apply {N R C w : Nat} (hN : 0 < N)
    (wf : GatherDims.WF ⟨3, ![1, N, C]⟩ ⟨2, ![R, 1]⟩ ⟨3, ![1, R, C]⟩ [0, 2] [1] [] [1] [] 1 ![1, 1, C])
    (x : (⟨3, ![1, N, C]⟩ : Shape).Idx → α) (idx : IVec ⟨2, ![R, 1]⟩ w) (u : Fin 1) (e : Fin R) (f : Fin C) :
    Host.gather (outerRowsDims N R C wf) x idx (ix3 u e f)
      = x (ix3 (0 : Fin 1) ⟨min (idx (ix2 e (0 : Fin 1))).toInt.toNat (N - 1), by omega⟩ f) := by
  obtain rfl : u = 0 := Subsingleton.elim _ _
  unfold Host.gather
  congr 1
  funext a
  refine Fin.ext ?_
  match a with
  | ⟨0, _⟩ =>
    show (outerRowsDims N R C wf).start (ix3 0 e f) idx 0 + (outerRowsDims N R C wf).batchCoord (ix3 0 e f) 0
      + (outerRowsDims N R C wf).offCoord (ix3 0 e f) 0 = _
    rw [GatherDims.batchCoord_eq_zero _ _ _ List.not_mem_nil]
    have hst : (outerRowsDims N R C wf).start (ix3 0 e f) idx 0 = 0 := by
      unfold GatherDims.start
      rw [dif_neg (show (0 : Fin 3) ∉ (outerRowsDims N R C wf).startIndexMap from
        (by decide : (0 : Fin 3) ∉ ([1] : List (Fin 3))))]
    rw [hst]
    simp only [Nat.add_zero, Nat.zero_add]
    rfl
  | ⟨1, _⟩ =>
    show (outerRowsDims N R C wf).start (ix3 0 e f) idx 1 + (outerRowsDims N R C wf).batchCoord (ix3 0 e f) 1
      + (outerRowsDims N R C wf).offCoord (ix3 0 e f) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (outerRowsDims N R C wf).startIndexMap from List.mem_singleton.mpr rfl)]
    have hsi : (outerRowsDims N R C wf).siIdx (ix3 0 e f) ⟨List.idxOf (1 : Fin 3) (outerRowsDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨2, _⟩ =>
    show (outerRowsDims N R C wf).start (ix3 0 e f) idx 2 + (outerRowsDims N R C wf).batchCoord (ix3 0 e f) 2
      + (outerRowsDims N R C wf).offCoord (ix3 0 e f) 2 = _
    rw [GatherDims.batchCoord_eq_zero _ _ _ List.not_mem_nil]
    have hst : (outerRowsDims N R C wf).start (ix3 0 e f) idx 2 = 0 := by
      unfold GatherDims.start
      rw [dif_neg (show (2 : Fin 3) ∉ (outerRowsDims N R C wf).startIndexMap from
        (by decide : (2 : Fin 3) ∉ ([1] : List (Fin 3))))]
    rw [hst]
    simp only [Nat.add_zero, Nat.zero_add]
    rfl

end Gather

end Cert.Lib.HostRead

end
-- ==== Proof.Consts.lean ====
/-
  The one float constant whose value the proof needs: the divisor of the cross-entropy mean, 262144 = 2^18, is a
  nonzero real.  (Every other constant appears as the same word on both sides and is never evaluated; the zero word
  is the library's.)
-/
import Idealize.ShloMosaic.PureOps.Ideal

noncomputable section

namespace Cert.LossConsts

open Idealize.ShloMosaic

/-- The pattern of 262144.0 denotes the real number 262144. -/
theorem ofBits_262144 : Ideal.ofBits .f32 0x48800000#32 = ((262144 : ℝ) : EReal) := by
  simp [Ideal.ofBits, Ideal.ieee, -EReal.coe_mul]; norm_num

end Cert.LossConsts

end
-- ==== Proof.LibBlockSum.lean ====
/-
  Sums over a range of T · B consecutive indices taken block by block, and running totals.

  The indices 0, …, T·B − 1 split into T consecutive blocks of B: index t·B + y is entry y of block t.  A sum over all of
  them is therefore the sum over the blocks of each block's sum.  A running total that starts from z plus the first
  term and adds one more term at each step is, after step t, z plus the sum of terms 0, …, t.  Together: a total
  accumulated block by block is z plus the sum over all T·B indices.
-/
import Mathlib

open scoped BigOperators

namespace Cert.Lib.BatchNorm

/-! ## The block decomposition of a range of T · B indices -/

/-- Entry y of block t has flat index t·B + y, below T·B. -/
theorem block_index_lt {T B : ℕ} (t : Fin T) (y : Fin B) : t.val * B + y.val < T * B :=
  calc t.val * B + y.val < t.val * B + B := Nat.add_lt_add_left y.isLt _
    _ = (t.val + 1) * B := by ring
    _ ≤ T * B := Nat.mul_le_mul_right _ t.isLt

/-- A sum over T·B indices is the sum over the T blocks of the sum over each block's B entries. -/
theorem sum_fin_mul {M : Type*} [AddCommMonoid M] (T B : ℕ) (f : Fin (T * B) → M) :
    ∑ i : Fin (T * B), f i = ∑ t : Fin T, ∑ y : Fin B, f ⟨t.val * B + y.val, block_index_lt t y⟩ := by
  rw [← Equiv.sum_comp (finProdFinEquiv (m := T) (n := B)) f, Fintype.sum_prod_type]
  refine Finset.sum_congr rfl fun t _ => Finset.sum_congr rfl fun y _ => ?_
  congr 1
  refine Fin.ext ?_
  simp only [finProdFinEquiv_apply_val]
  ring

/-- The same for a function of the flat index as a natural number, with the blocks and entries counted by ranges. -/
theorem sum_fin_mul_nat {M : Type*} [AddCommMonoid M] (T B : ℕ) (F : ℕ → M) :
    ∑ i : Fin (T * B), F i.val = ∑ t ∈ Finset.range T, ∑ y ∈ Finset.range B, F (t * B + y) := by
  rw [sum_fin_mul T B fun i => F i.val, Finset.sum_range]
  refine Finset.sum_congr rfl fun t _ => ?_
  rw [Finset.sum_range]

/-! ## Running totals -/

/-- A running total a, with a 0 = z + g 0 and a (t + 1) = a t + g (t + 1), is at step t the start z plus the sum of
    g 0, …, g t. -/
theorem running_total {M : Type*} [AddCommMonoid M] (a g : ℕ → M) (z : M) (h0 : a 0 = z + g 0)
    (hs : ∀ t, a (t + 1) = a t + g (t + 1)) (t : ℕ) : a t = z + ∑ s ∈ Finset.range (t + 1), g s := by
  induction t with
  | zero => rw [h0, Finset.sum_range_one]
  | succ t ih => rw [hs t, ih, Finset.sum_range_succ _ (t + 1), add_assoc]

/-- The same when the recurrence is known only up to a last step T − 1: for every t below T. -/
theorem running_total_below {M : Type*} [AddCommMonoid M] (T : ℕ) (a g : ℕ → M) (z : M) (h0 : a 0 = z + g 0)
    (hs : ∀ t, t + 1 < T → a (t + 1) = a t + g (t + 1)) (t : ℕ) (ht : t < T) :
    a t = z + ∑ s ∈ Finset.range (t + 1), g s := by
  induction t with
  | zero => rw [h0, Finset.sum_range_one]
  | succ t ih => rw [hs t ht, ih (Nat.lt_of_succ_lt ht), Finset.sum_range_succ _ (t + 1), add_assoc]

/-- A sum of g 0, …, g (T − 1) counted by a range is the sum over the T indices below T. -/
theorem sum_range_eq_sum_fin {M : Type*} [AddCommMonoid M] (T : ℕ) (g : ℕ → M) :
    ∑ s ∈ Finset.range T, g s = ∑ t : Fin T, g t.val :=
  Finset.sum_range g

/-- A total accumulated block by block — it starts from z plus block 0's sum and adds block t + 1's sum at step
    t + 1 — is, after the last of T ≥ 1 blocks of B entries, z plus the sum over all T·B flat indices. -/
theorem running_total_blocks {M : Type*} [AddCommMonoid M] (T B : ℕ) (hT : 0 < T) (a : ℕ → M) (F : ℕ → M) (z : M)
    (h0 : a 0 = z + ∑ y ∈ Finset.range B, F (0 * B + y))
    (hs : ∀ t, t + 1 < T → a (t + 1) = a t + ∑ y ∈ Finset.range B, F ((t + 1) * B + y)) :
    a (T - 1) = z + ∑ i : Fin (T * B), F i.val := by
  rw [running_total_below T a (fun t => ∑ y ∈ Finset.range B, F (t * B + y)) z h0 hs (T - 1) (by omega),
    sum_fin_mul_nat, Nat.sub_add_cancel hT]

/-! ## Running totals indexed by the steps 0, …, T − 1 themselves -/

/-- A running total a over the T steps, with a 0 = z + g 0 and a (t + 1) = a t + g (t + 1), is at the last step the
    start z plus the sum of all T terms. -/
theorem running_total_fin_last {M : Type*} [AddCommMonoid M] {T : ℕ} (hT : 0 < T) (a g : Fin T → M) (z : M)
    (h0 : a ⟨0, hT⟩ = z + g ⟨0, hT⟩)
    (hs : ∀ (t : ℕ) (h : t + 1 < T), a ⟨t + 1, h⟩ = a ⟨t, Nat.lt_of_succ_lt h⟩ + g ⟨t + 1, h⟩) :
    a ⟨T - 1, Nat.sub_lt hT Nat.one_pos⟩ = z + ∑ s : Fin T, g s := by
  have key := running_total_below T (fun t => if h : t < T then a ⟨t, h⟩ else 0)
    (fun t => if h : t < T then g ⟨t, h⟩ else 0) z
    (by simp only [dif_pos hT]; exact h0)
    (fun t h => by simp only [dif_pos h, dif_pos (Nat.lt_of_succ_lt h)]; exact hs t h)
    (T - 1) (Nat.sub_lt hT Nat.one_pos)
  simp only [dif_pos (Nat.sub_lt hT Nat.one_pos), Nat.sub_add_cancel hT] at key
  rw [key, Finset.sum_range]
  congr 1
  exact Finset.sum_congr rfl fun s _ => by rw [dif_pos s.isLt]

/-- A total accumulated block by block over T ≥ 1 blocks of B entries — it starts from z plus block 0's sum and
    adds block t + 1's sum at step t + 1 — is at the last step z plus the sum over all T·B flat indices. -/
theorem running_total_blocks_fin {M : Type*} [AddCommMonoid M] (T B : ℕ) (hT : 0 < T) (a : Fin T → M)
    (f : Fin (T * B) → M) (z : M)
    (h0 : a ⟨0, hT⟩ = z + ∑ y : Fin B, f ⟨(⟨0, hT⟩ : Fin T).val * B + y.val, block_index_lt ⟨0, hT⟩ y⟩)
    (hs : ∀ (t : ℕ) (h : t + 1 < T), a ⟨t + 1, h⟩ = a ⟨t, Nat.lt_of_succ_lt h⟩
        + ∑ y : Fin B, f ⟨(⟨t + 1, h⟩ : Fin T).val * B + y.val, block_index_lt ⟨t + 1, h⟩ y⟩) :
    a ⟨T - 1, Nat.sub_lt hT Nat.one_pos⟩ = z + ∑ i : Fin (T * B), f i := by
  rw [sum_fin_mul]
  exact running_total_fin_last hT a (fun t => ∑ y : Fin B, f ⟨t.val * B + y.val, block_index_lt t y⟩) z h0 hs

/-! ## The instance 50000 = 10 · 5000 -/

/-- A sum over 50000 indices is the sum over 10 blocks of the sum over each block's 5000 entries. -/
theorem sum_fin_50000 {M : Type*} [AddCommMonoid M] (f : Fin 50000 → M) :
    ∑ i : Fin 50000, f i
      = ∑ t : Fin 10, ∑ y : Fin 5000, f ⟨t.val * 5000 + y.val, by have := t.isLt; have := y.isLt; omega⟩ :=
  sum_fin_mul 10 5000 f

/-- The same for a function of the flat index as a natural number. -/
theorem sum_fin_50000_nat {M : Type*} [AddCommMonoid M] (F : ℕ → M) :
    ∑ i : Fin 50000, F i.val = ∑ t ∈ Finset.range 10, ∑ y ∈ Finset.range 5000, F (t * 5000 + y) :=
  sum_fin_mul_nat 10 5000 F

/-- A total accumulated over 10 blocks of 5000 is z plus the sum over all 50000 flat indices. -/
theorem running_total_50000 {M : Type*} [AddCommMonoid M] (a : ℕ → M) (F : ℕ → M) (z : M)
    (h0 : a 0 = z + ∑ y ∈ Finset.range 5000, F (0 * 5000 + y))
    (hs : ∀ t, t + 1 < 10 → a (t + 1) = a t + ∑ y ∈ Finset.range 5000, F ((t + 1) * 5000 + y)) :
    a 9 = z + ∑ i : Fin 50000, F i.val :=
  running_total_blocks 10 5000 (by norm_num) a F z h0 hs

/-- A total accumulated over the 10 steps, block t being the 5000 entries from 5000 t on, is at step 9 the start z
    plus the sum over all 50000 entries. -/
theorem running_total_50000_fin {M : Type*} [AddCommMonoid M] (a : Fin 10 → M) (f : Fin 50000 → M) (z : M)
    (h0 : a 0 = z + ∑ y : Fin 5000, f ⟨0 * 5000 + y.val, by have := y.isLt; omega⟩)
    (hs : ∀ (t : ℕ) (h : t + 1 < 10), a ⟨t + 1, h⟩ = a ⟨t, Nat.lt_of_succ_lt h⟩
        + ∑ y : Fin 5000, f ⟨(t + 1) * 5000 + y.val, by have := y.isLt; omega⟩) :
    a 9 = z + ∑ i : Fin 50000, f i :=
  running_total_blocks_fin 10 5000 (by norm_num) a f z h0 hs

end Cert.Lib.BatchNorm
-- ==== Proof.LossSpec.lean ====
/-
  The loss as one function of the argument arrays, on the extended reals, and the laws that join its two readings.

  With N = 262144 positions, the loss is

      1 · (Σ_r Σ_c (out[r,c] − img[r,c])²) / 786432
    + 1 · −((Σ_r Σ_c gt[r,c] · logsoftmax(seg[r,·])[c]) / 262144)
    + 1 · Σ_e max(‖f[a_e] − f[p_e]‖ − ‖f[a_e] − f[n_e]‖, 0)

  where logsoftmax(s)[c] = (s[c] − max s) − log Σ_k exp(s[k] − max s), and f[i] is the feature row a start index names
  (read signed, clamped into the array).  Sums of extended reals may be regrouped freely (addition is commutative and
  associative there), so the total over all positions is the total accumulated tile by tile; the only other laws used
  are 0 + x = x, max(−∞-word, m) = m for a maximum m already taken from that word, and (−x)/c = −(x/c) for a nonzero
  real c.
-/
import Idealize.ShloMosaic.PureOps.Ideal
import Idealize.ShloMosaic.PureOps.Ideal.Laws
import Idealize.ShloMosaic.Lib.ValueIdx
import proofs.«129317_j749_2_alg».proof.Proof.Consts
import proofs.«129317_j749_2_alg».proof.Proof.LibBlockSum

noncomputable section

open scoped BigOperators

namespace Cert.LossSpec

open Idealize.ShloMosaic Idealize.ShloMosaic.ValueIdx

/-! ## Shapes -/

abbrev SImg : Shape := ⟨3, ![1, 262144, 3]⟩
abbrev SSeg : Shape := ⟨3, ![1, 262144, 10]⟩
abbrev SFeat : Shape := ⟨3, ![1, 262144, 64]⟩
abbrev SCol : Shape := ⟨2, ![4096, 1]⟩

/-- The word of −∞, from which every row maximum is taken. -/
abbrev negInf : EReal := Ideal.ofBits .f32 0xFF800000#32

/-! ## The squared-error part -/

/-- The squared difference of the two images at position r, channel c. -/
def sqAt (img out : SImg.Idx → EReal) (r : Fin 262144) (c : Fin 3) : EReal :=
  (out (ix3 (0 : Fin 1) r c) - img (ix3 (0 : Fin 1) r c)) * (out (ix3 (0 : Fin 1) r c) - img (ix3 (0 : Fin 1) r c))

/-- Its sum over the three channels of position r. -/
def sqRow (img out : SImg.Idx → EReal) (r : Fin 262144) : EReal := ∑ c : Fin 3, sqAt img out r c

/-- The total squared error. -/
def sqTotal (img out : SImg.Idx → EReal) : EReal := ∑ r : Fin 262144, sqRow img out r

/-! ## The cross-entropy part -/

/-- The largest logit of position r, taken from −∞. -/
def rowMax (seg : SSeg.Idx → EReal) (r : Fin 262144) : EReal :=
  (Finset.univ : Finset (Fin 10)).fold max negInf (fun c => seg (ix3 (0 : Fin 1) r c))

/-- A logit less its row's maximum. -/
def shifted (seg : SSeg.Idx → EReal) (r : Fin 262144) (c : Fin 10) : EReal := seg (ix3 (0 : Fin 1) r c) - rowMax seg r

/-- The log-softmax of position r at class c. -/
def logSoftmax (seg : SSeg.Idx → EReal) (r : Fin 262144) (c : Fin 10) : EReal :=
  shifted seg r c - Ideal.log (∑ k : Fin 10, Ideal.exp (shifted seg r k))

/-- Position r's target-weighted log-probability. -/
def ceRow (gt seg : SSeg.Idx → EReal) (r : Fin 262144) : EReal :=
  ∑ c : Fin 10, gt (ix3 (0 : Fin 1) r c) * logSoftmax seg r c

/-- Its total over all positions. -/
def ceTotal (gt seg : SSeg.Idx → EReal) : EReal := ∑ r : Fin 262144, ceRow gt seg r

/-! ## The triplet part -/

/-- The feature row a start index names: read as a signed integer and clamped into [0, 262143]. -/
def rowAt (idx : IVec SCol 32) (e : Fin 4096) : Fin 262144 :=
  ⟨min (idx (ix2 e (0 : Fin 1))).toInt.toNat (262144 - 1), by omega⟩

/-- The squared distance between the feature rows two index columns name at triplet e. -/
def sqDist (feat : SFeat.Idx → EReal) (ia ib : IVec SCol 32) (e : Fin 4096) : EReal :=
  ∑ d : Fin 64, (feat (ix3 (0 : Fin 1) (rowAt ia e) d) - feat (ix3 (0 : Fin 1) (rowAt ib e) d))
    * (feat (ix3 (0 : Fin 1) (rowAt ia e) d) - feat (ix3 (0 : Fin 1) (rowAt ib e) d))

/-- The hinge of triplet e: the anchor's distance to the positive less its distance to the negative, cut at zero. -/
def hinge (feat : SFeat.Idx → EReal) (ia ip iq : IVec SCol 32) (e : Fin 4096) : EReal :=
  max (Ideal.sqrt (sqDist feat ia ip e) - Ideal.sqrt (sqDist feat ia iq e)) 0

/-- The triplet term. -/
def triplet (feat : SFeat.Idx → EReal) (ia ip iq : IVec SCol 32) : EReal := ∑ e : Fin 4096, hinge feat ia ip iq e

/-! ## The loss -/

/-- The three weights are the word of 1.0; the two divisors the words of 786432.0 and 262144.0. -/
def loss (img : SImg.Idx → EReal) (gt : SSeg.Idx → EReal) (out : SImg.Idx → EReal) (seg : SSeg.Idx → EReal)
    (feat : SFeat.Idx → EReal) (ia ip iq : IVec SCol 32) : EReal :=
  Ideal.ofBits .f32 0x3F800000#32 * Ideal.div (sqTotal img out) (Ideal.ofBits .f32 0x49400000#32)
    + Ideal.ofBits .f32 0x3F800000#32 * (-(Ideal.div (ceTotal gt seg) (Ideal.ofBits .f32 0x48800000#32)))
    + Ideal.ofBits .f32 0x3F800000#32 * triplet feat ia ip iq

/-! ## Laws -/

/-- Negation passes through a division by 262144: off zero the quotient is a product, and −x · y = −(x · y). -/
theorem div_neg_262144 (x : EReal) :
    Ideal.div (-x) (Ideal.ofBits .f32 0x48800000#32) = -(Ideal.div x (Ideal.ofBits .f32 0x48800000#32)) := by
  rw [Cert.LossConsts.ofBits_262144, Ideal.div_coe (by norm_num : (262144 : ℝ) ≠ 0),
    Ideal.div_coe (by norm_num : (262144 : ℝ) ≠ 0), neg_mul]

/-- A maximum taken from a starting value is at least that value, so taking the maximum with it again changes nothing. -/
theorem max_start_fold {ι : Type*} (s : Finset ι) (b : EReal) (f : ι → EReal) :
    max b (s.fold max b f) = s.fold max b f :=
  max_eq_right (Finset.le_fold_max b |>.mpr (Or.inl le_rfl))

/-- A sum over the indices of a [1, n, k] array is the sum over rows of the sum over columns. -/
theorem sum_idx3_one {M : Type*} [AddCommMonoid M] {n k : Nat} (f : (⟨3, ![1, n, k]⟩ : Shape).Idx → M) :
    ∑ i, f i = ∑ r : Fin n, ∑ c : Fin k, f (ix3 (0 : Fin 1) r c) := by
  let e : (⟨3, ![1, n, k]⟩ : Shape).Idx ≃ Fin n × Fin k :=
    { toFun := fun i => (i 1, i 2)
      invFun := fun p => ix3 (0 : Fin 1) p.1 p.2
      left_inv := fun i => by
        funext a
        match a with
        | ⟨0, h0⟩ =>
          refine Fin.ext ?_
          have hlt : (i ⟨0, h0⟩).val < 1 := (i ⟨0, h0⟩).isLt
          show (0 : ℕ) = (i ⟨0, h0⟩).val
          omega
        | ⟨1, _⟩ => rfl
        | ⟨2, _⟩ => rfl
      right_inv := fun p => rfl }
  rw [← Equiv.sum_comp e.symm f, Fintype.sum_prod_type]
  rfl

/-- A sum over the indices of a [1, n] array is the sum over its n entries. -/
theorem sum_idx2_one {M : Type*} [AddCommMonoid M] {n : Nat} (f : (⟨2, ![1, n]⟩ : Shape).Idx → M) :
    ∑ i, f i = ∑ r : Fin n, f (ix2 (0 : Fin 1) r) := by
  rw [sum_idx2, Fin.sum_univ_one]

/-- A total accumulated over 64 tiles of 4096 positions — it starts from z plus tile 0's sum and adds tile t + 1's sum
    at step t + 1 — is, after the last tile, z plus the sum over all 262144 positions. -/
theorem accumulated_tiles {M : Type*} [AddCommMonoid M] (a : Fin 64 → M) (g : Fin 262144 → M) (z : M)
    (h0 : a ⟨0, by norm_num⟩ = z + ∑ y : Fin 4096, g ⟨0 * 4096 + y.val, by have := y.isLt; omega⟩)
    (hs : ∀ (t : ℕ) (h : t + 1 < 64), a ⟨t + 1, h⟩ = a ⟨t, Nat.lt_of_succ_lt h⟩
        + ∑ y : Fin 4096, g ⟨(t + 1) * 4096 + y.val, by have := y.isLt; omega⟩) :
    a ⟨63, by norm_num⟩ = z + ∑ r : Fin 262144, g r :=
  Cert.Lib.BatchNorm.running_total_blocks_fin 64 4096 (by norm_num) a g z h0 hs

end Cert.LossSpec

end
-- ==== Proof.HostTail.lean ====
/-
  The host operations after the region, as one function of what they read.

  After the region the program divides the squared-error cell by 786432, negates the log-probability cell and divides it
  by 262144, gathers the anchor, positive and negative feature rows out of the features viewed as a 262144 × 64 matrix,
  takes the two row distances, cuts their difference at zero, sums over the 4096 triplets, and adds the three terms with
  weight 1.  None of these operations writes an array of the region, so the result is that function of the two result
  arrays the region left and of the untouched arguments.  Read at its one index over the extended reals, each gathered
  row is the feature row its start index names, each distance the square root of a sum over the 64 features, and the
  total the sum over the triplets.
-/
import proofs.«129317_j749_2_alg».proof.Proof.KernelOutputs
import proofs.«129317_j749_2_alg».proof.Proof.LibGatherScatter
import proofs.«129317_j749_2_alg».proof.Proof.LibHostRead
import proofs.«129317_j749_2_alg».proof.Proof.LossSpec
import Idealize.ShloMosaic.Lib.ValueLayout
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem Idealize.ShloMosaic.StableHlo
open Idealize.ShloMosaic.Pipeline (Dat)

namespace Cert.KernelIdeal.HostTail

open Cert.KernelIdeal Cert.KernelIdeal.Gen Cert.KernelIdeal.Outputs

variable {F : FTy → Type} [FloatOps F]

/-- An index vector as the column of start indices a gather reads: negative entries count from the end (262144 is
    added to them). -/
def col (idx : (⟨S4096, .i32⟩ : BufTy).Contents (Elt F)) : (⟨S4096x1, .i32⟩ : BufTy).Contents (Elt F) :=
  broadcastInDim S4096x1 ![0] bcast_S4096_S4096x1_0
    (select (cmpi .slt idx (broadcastInDim S4096 ![] bcast_S_S4096 (constantI S_ 32 0#32)))
      (addi idx (broadcastInDim S4096 ![] bcast_S_S4096 (constantI S_ 32 262144#32))) idx)

/-- The feature rows an index vector names, gathered from the features viewed as a 262144 × 64 matrix. -/
def rows (feat : (⟨S1x262144x64, .f32⟩ : BufTy).Contents (Elt F)) (idx : (⟨S4096, .i32⟩ : BufTy).Contents (Elt F)) :
    (⟨S4096x64, .f32⟩ : BufTy).Contents (Elt F) :=
  Host.gather gather_S262144x64_S4096x1_S4096x64_1_0_n_n_0_1_164
    (shapeCast S262144x64 feat shapeCasts_S1x262144x64_S262144x64) (col idx)

/-- The distances between the rows two index vectors name. -/
def dist (feat : (⟨S1x262144x64, .f32⟩ : BufTy).Contents (Elt F)) (ia ib : (⟨S4096, .i32⟩ : BufTy).Contents (Elt F)) :
    (⟨S4096, .f32⟩ : BufTy).Contents (Elt F) :=
  Host.sqrt (Host.reduceAdd (mulf (subf (rows feat ia) (rows feat ib)) (subf (rows feat ia) (rows feat ib)))
    (constant S_ .f32 0x00000000#32) reducesTo_S4096x64_S4096_d1 h_S_)

/-- The loss from the two accumulated cells, the features and the three index vectors. -/
def tail (a b : (⟨S1x1, .f32⟩ : BufTy).Contents (Elt F)) (feat : (⟨S1x262144x64, .f32⟩ : BufTy).Contents (Elt F))
    (i5 i6 i7 : (⟨S4096, .i32⟩ : BufTy).Contents (Elt F)) : (⟨S_, .f32⟩ : BufTy).Contents (Elt F) :=
  addf
    (addf
      (mulf (constant S_ .f32 0x3F800000#32)
        (Host.divf (shapeCast S_ a shapeCasts_S1x1_S_) (constant S_ .f32 0x49400000#32)))
      (mulf (constant S_ .f32 0x3F800000#32)
        (Host.divf (Host.negf (shapeCast S_ b shapeCasts_S1x1_S_)) (constant S_ .f32 0x48800000#32))))
    (mulf (constant S_ .f32 0x3F800000#32)
      (Host.reduceAdd
        (maximumf (subf (dist feat i5 i6) (dist feat i5 i7))
          (broadcastInDim S4096 ![] bcast_S_S4096 (constant S_ .f32 0x00000000#32)))
        (constant S_ .f32 0x00000000#32) reducesTo_S4096_S_d0 h_S_))

variable (m : (ℓ : Loc nD τ sig) → Buf (Elt F) ℓ)

set_option maxRecDepth 8192 in
set_option maxHeartbeats 4000000 in
/-- The program's result after the region is the tail of the two result arrays and the untouched arguments. -/
theorem tail_eq (c : Dev nD) :
    Pipeline.afterTail₀ cfgs (dats m) 0 (V0 m) [hostOps1, hostOps1_1, hostOps1_2] c main_v43
      = tail (sqOut m c) (ceOut m c) (m ((c.tc : Thread nD τ).loc main_arg4)) (m ((c.tc : Thread nD τ).loc main_arg5))
          (m ((c.tc : Thread nD τ).loc main_arg6)) (m ((c.tc : Thread nD τ).loc main_arg7)) := by
  have e4 : Pipeline.withArrays (cfgs 0).spec c (V0 m c) (fun w => (dats m 0 c).arrAt w (cfgs 0).N)
      (Proc.devRef .tc main_v0_0) = sqOut m c :=
    (Pipeline.withArrays_arr spec0 launch0.win.arr_inj c _ _ 4).trans (final4 m c)
  have e5 : Pipeline.withArrays (cfgs 0).spec c (V0 m c) (fun w => (dats m 0 c).arrAt w (cfgs 0).N)
      (Proc.devRef .tc main_v0_1) = ceOut m c :=
    (Pipeline.withArrays_arr spec0 launch0.win.arr_inj c _ _ 5).trans (final5 m c)
  have a4 : Pipeline.withArrays (cfgs 0).spec c (V0 m c) (fun w => (dats m 0 c).arrAt w (cfgs 0).N)
      (Proc.devRef .tc main_arg4) = m ((c.tc : Thread nD τ).loc main_arg4) :=
    (Pipeline.withArrays_of_ne _ c (V0 m c) _ main_arg4 (by exact (by decide : ∀ w, Pipeline.arrRef spec0 w ≠ main_arg4))).trans (V_main_arg4 m c)
  have a5 : Pipeline.withArrays (cfgs 0).spec c (V0 m c) (fun w => (dats m 0 c).arrAt w (cfgs 0).N)
      (Proc.devRef .tc main_arg5) = m ((c.tc : Thread nD τ).loc main_arg5) :=
    (Pipeline.withArrays_of_ne _ c (V0 m c) _ main_arg5 (by exact (by decide : ∀ w, Pipeline.arrRef spec0 w ≠ main_arg5))).trans (V_main_arg5 m c)
  have a6 : Pipeline.withArrays (cfgs 0).spec c (V0 m c) (fun w => (dats m 0 c).arrAt w (cfgs 0).N)
      (Proc.devRef .tc main_arg6) = m ((c.tc : Thread nD τ).loc main_arg6) :=
    (Pipeline.withArrays_of_ne _ c (V0 m c) _ main_arg6 (by exact (by decide : ∀ w, Pipeline.arrRef spec0 w ≠ main_arg6))).trans (V_main_arg6 m c)
  have a7 : Pipeline.withArrays (cfgs 0).spec c (V0 m c) (fun w => (dats m 0 c).arrAt w (cfgs 0).N)
      (Proc.devRef .tc main_arg7) = m ((c.tc : Thread nD τ).loc main_arg7) :=
    (Pipeline.withArrays_of_ne _ c (V0 m c) _ main_arg7 (by exact (by decide : ∀ w, Pipeline.arrRef spec0 w ≠ main_arg7))).trans (V_main_arg7 m c)
  unfold Pipeline.afterTail₀
  simp only [hostOps1, hostOps1_1, hostOps1_2, List.flatten_cons, List.flatten_nil, List.append_nil, List.cons_append,
    List.nil_append]
  after_results_simp
  simp only [TRef.toBuf, TRef.ofBuf, cast_eq, e4, e5, a4, a5, a6, a7]
  unfold tail dist rows col
  rfl

/-! ## The tail read at an index, over the extended reals -/

section Value

open Cert.Lib.GatherScatter Cert.Lib.HostRead Cert.LossSpec Idealize.ShloMosaic.ValueIdx

/-- A gathered row, at (e, d): entry d of the feature row the start index of triplet e names. -/
theorem rows_apply (feat : (⟨S1x262144x64, .f32⟩ : BufTy).Contents (Elt Ideal))
    (idx : (⟨S4096, .i32⟩ : BufTy).Contents (Elt Ideal)) (e : Fin 4096) (d : Fin 64) :
    rows (F := Ideal) feat idx (ix2 e d) = feat (ix3 (0 : Fin 1) (rowAt (col (F := Ideal) idx) e) d) := by
  unfold rows
  exact (gather_rows_apply (N := 262144) (R := 4096) (C := 64) (by norm_num)
    gather_S262144x64_S4096x1_S4096x64_1_0_n_n_0_1_164_wf _ _ e d).trans (shapeCast_1ab_ab_apply _ _ _ d)

/-- A distance, at e: the square root of the zero word plus the squared distance of the two rows. -/
theorem dist_apply (feat : (⟨S1x262144x64, .f32⟩ : BufTy).Contents (Elt Ideal))
    (ia ib : (⟨S4096, .i32⟩ : BufTy).Contents (Elt Ideal)) (e : Fin 4096) :
    dist (F := Ideal) feat ia ib (ix1 e)
      = Ideal.sqrt (Ideal.ofBits .f32 0x00000000#32
          + sqDist feat (col (F := Ideal) ia) (col (F := Ideal) ib) e) := by
  unfold dist sqDist
  rw [hostSqrt_apply, hostReduceAdd_rows]
  simp only [mulf_apply, subf_apply, rows_apply, constant_apply]

/-- The tail at its one index: the three weighted terms. -/
theorem tail_apply (a b : (⟨S1x1, .f32⟩ : BufTy).Contents (Elt Ideal))
    (feat : (⟨S1x262144x64, .f32⟩ : BufTy).Contents (Elt Ideal))
    (i5 i6 i7 : (⟨S4096, .i32⟩ : BufTy).Contents (Elt Ideal)) (i : S_.Idx) :
    tail (F := Ideal) a b feat i5 i6 i7 i
      = Ideal.ofBits .f32 0x3F800000#32
            * Ideal.div (a (ix2 (0 : Fin 1) (0 : Fin 1))) (Ideal.ofBits .f32 0x49400000#32)
          + Ideal.ofBits .f32 0x3F800000#32
            * Ideal.div (-(b (ix2 (0 : Fin 1) (0 : Fin 1)))) (Ideal.ofBits .f32 0x48800000#32)
          + Ideal.ofBits .f32 0x3F800000#32
            * (Ideal.ofBits .f32 0x00000000#32 + ∑ e : Fin 4096,
                max (Ideal.sqrt (Ideal.ofBits .f32 0x00000000#32
                        + sqDist feat (col (F := Ideal) i5) (col (F := Ideal) i6) e)
                      - Ideal.sqrt (Ideal.ofBits .f32 0x00000000#32
                        + sqDist feat (col (F := Ideal) i5) (col (F := Ideal) i7) e))
                  (Ideal.ofBits .f32 0x00000000#32)) := by
  unfold tail
  have hb : ∀ e : Fin 4096, broadcastInDim S4096 ![] bcast_S_S4096 (constant (F := Ideal) S_ .f32 0x00000000#32) (ix1 e)
      = Ideal.ofBits .f32 0x00000000#32 := fun e =>
    broadcastInDim_apply _ bcast_S_S4096 _ (ix1 e) (fun a => a.elim0) (fun a => a.elim0)
  simp only [addf_apply, mulf_apply, constant_apply, hostDivf_apply, hostNegf_apply, shapeCast_11_scalar_apply,
    hostReduceAdd_vec, maximumf_apply, subf_apply, dist_apply, hb]

end Value

end Cert.KernelIdeal.HostTail

end
-- ==== Proof.LibKeepdims.lean ====
/-
  Row statistics of a [1, a, b] array kept as a unit lane.

  A reduction of a [1, a, b] array over its lanes (the last axis) gives a [1, a] array; "keepdims" views it as [1, a, 1],
  and a broadcast back to [1, a, b] repeats each row's statistic over the row's lanes.  Read at an index: the cast
  [1, a] → [1, a, 1] at (u, i, w) is the operand at (0, i); the broadcast [1, a, 1] → [1, a, b] at (u, i, j) is the
  operand at (0, i, 0); a lane sum at (u, i) is Σ_j of the row; a lane maximum at (u, i) is the maximum over the row
  from the starting word; and a lane sum followed, through the unit lane, by a sum over the rows leaves in its one
  cell Σ_i Σ_j of the array.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Lib.Keepdims

open Idealize.ShloMosaic Idealize.ShloMosaic.ValueIdx

section Layout
variable {α : Type}

/-- A [1, a] array cast to [1, a, 1] reads, at (u, i, w), the operand at (0, i): the same row-major position. -/
theorem shapeCast_1a_1a1_apply {a : ℕ} (x : (⟨2, ![1, a]⟩ : Shape).Idx → α)
    (h : (⟨2, ![1, a]⟩ : Shape).ShapeCasts ⟨3, ![1, a, 1]⟩) (u : Fin 1) (i : Fin a) (w : Fin 1) :
    shapeCast ⟨3, ![1, a, 1]⟩ x h (ix3 u i w) = x (ix2 (0 : Fin 1) i) :=
  shapeCast_apply x h _ _ (by
    have hu : u.val = 0 := by omega
    have hw : w.val = 0 := by omega
    rw [Shape.rowMajor_val_three, Shape.rowMajor_val_two]
    show (0 : ℕ) * a + i.val = (u.val * a + i.val) * 1 + w.val
    rw [hu, hw]; omega)

/-- A [1, a, 1] array broadcast to [1, a, b] reads, at (u, i, j), the operand at (0, i, 0): row i's one entry. -/
theorem broadcastTo_1a1_1ab_apply {a b : ℕ} (v : (⟨3, ![1, a, 1]⟩ : Shape).Idx → α)
    (h : (⟨3, ![1, a, 1]⟩ : Shape).Broadcasts ⟨3, ![1, a, b]⟩) (u : Fin 1) (i : Fin a) (j : Fin b) :
    broadcastTo ⟨3, ![1, a, b]⟩ v h (ix3 u i j) = v (ix3 (0 : Fin 1) i (0 : Fin 1)) := by
  refine broadcastTo_apply v h (ix3 u i j) (ix3 (0 : Fin 1) i (0 : Fin 1)) fun ax => ?_
  match ax with
  | ⟨0, _⟩ => rfl
  | ⟨1, _⟩ =>
    show i.val = if a = 1 then 0 else i.val
    split
    · have := i.isLt; omega
    · rfl
  | ⟨2, _⟩ => rfl

/-- So a [1, a] row statistic kept as a unit lane and broadcast over the lanes reads, at (u, i, j), the statistic of
    row i. -/
theorem keepdims_broadcast_apply {a b : ℕ} (x : (⟨2, ![1, a]⟩ : Shape).Idx → α)
    (hc : (⟨2, ![1, a]⟩ : Shape).ShapeCasts ⟨3, ![1, a, 1]⟩)
    (hb : (⟨3, ![1, a, 1]⟩ : Shape).Broadcasts ⟨3, ![1, a, b]⟩) (u : Fin 1) (i : Fin a) (j : Fin b) :
    broadcastTo ⟨3, ![1, a, b]⟩ (shapeCast ⟨3, ![1, a, 1]⟩ x hc) hb (ix3 u i j) = x (ix2 (0 : Fin 1) i) :=
  (broadcastTo_1a1_1ab_apply _ hb u i j).trans (shapeCast_1a_1a1_apply x hc 0 i 0)

end Layout

/-! ## The index a reduction inserts -/

/-- Reducing the lanes of [1, a, b]: the reduced index (u, i) with lane k inserted is (u, i, k). -/
theorem lift_lane {a b : ℕ} (h : Shape.Reduces ⟨3, ![1, a, b]⟩ [(2 : Fin 3)] ⟨2, ![1, a]⟩) (u : Fin 1) (i : Fin a)
    (k : Fin b) : h.lift (ix2 u i) k = ix3 u i k := by
  funext d
  refine Fin.ext ?_
  match d with
  | ⟨0, _⟩ => rfl
  | ⟨1, _⟩ => rfl
  | ⟨2, _⟩ => rfl

/-- Reducing the rows of [1, a, 1]: the reduced index (u, w) with row k inserted is (u, k, w). -/
theorem lift_row {a : ℕ} (h : Shape.Reduces ⟨3, ![1, a, 1]⟩ [(1 : Fin 3)] ⟨2, ![1, 1]⟩) (u : Fin 1) (w : Fin 1)
    (k : Fin a) : h.lift (ix2 u w) k = ix3 u k w := by
  funext d
  refine Fin.ext ?_
  match d with
  | ⟨0, _⟩ => rfl
  | ⟨1, _⟩ => rfl
  | ⟨2, _⟩ => rfl

/-! ## Lane sums and lane maxima on the extended reals -/

variable {φ : FTy}

/-- A lane sum of a [1, a, b] array at (u, i) is the sum of row i. -/
theorem lane_sum_apply {a b : ℕ} (src : FVec Ideal ⟨3, ![1, a, b]⟩ φ) (acc : BitVec φ.bits)
    (h : Shape.Reduces ⟨3, ![1, a, b]⟩ [(2 : Fin 3)] ⟨2, ![1, a]⟩) (hφ : FKind.Formats φ)
    (hacc : acc = FKind.add.neutral φ hφ) (u : Fin 1) (i : Fin a) :
    multiReduction .add [(2 : Fin 3)] ⟨2, ![1, a]⟩ src acc h hφ hacc (ix2 u i) = ∑ j : Fin b, src (ix3 u i j) :=
  (Ideal.multiReduction_add_single src acc h hφ hacc (ix2 u i)).trans
    (Finset.sum_congr rfl fun j _ => congrArg src (lift_lane h u i j))

/-- A lane maximum of a [1, a, b] array at (u, i) is the maximum of row i taken from the starting word. -/
theorem lane_max_apply {a b : ℕ} (src : FVec Ideal ⟨3, ![1, a, b]⟩ φ) (acc : BitVec φ.bits)
    (h : Shape.Reduces ⟨3, ![1, a, b]⟩ [(2 : Fin 3)] ⟨2, ![1, a]⟩) (hφ : FKind.Formats φ)
    (hacc : acc = FKind.maximumf.neutral φ hφ) (u : Fin 1) (i : Fin a) :
    multiReduction .maximumf [(2 : Fin 3)] ⟨2, ![1, a]⟩ src acc h hφ hacc (ix2 u i)
      = (Finset.univ : Finset (Fin b)).fold max (Ideal.ofBits φ acc) (fun j => src (ix3 u i j)) :=
  (Ideal.multiReduction_maximumf_single src acc h hφ hacc (ix2 u i)).trans
    (congrArg (fun f => (Finset.univ : Finset (Fin b)).fold max (Ideal.ofBits φ acc) f)
      (funext fun j => congrArg src (lift_lane h u i j)))

/-- A lane sum, kept as a unit lane, then summed over the rows: the one cell holds the sum over rows of the sum over
    lanes. -/
theorem sum_lanes_then_rows {a b : ℕ} (src : FVec Ideal ⟨3, ![1, a, b]⟩ φ) (acc acc' : BitVec φ.bits)
    (h2 : Shape.Reduces ⟨3, ![1, a, b]⟩ [(2 : Fin 3)] ⟨2, ![1, a]⟩) (hφ : FKind.Formats φ)
    (hacc : acc = FKind.add.neutral φ hφ)
    (hc : (⟨2, ![1, a]⟩ : Shape).ShapeCasts ⟨3, ![1, a, 1]⟩)
    (h1 : Shape.Reduces ⟨3, ![1, a, 1]⟩ [(1 : Fin 3)] ⟨2, ![1, 1]⟩) (hφ' : FKind.Formats φ)
    (hacc' : acc' = FKind.add.neutral φ hφ') :
    multiReduction .add [(1 : Fin 3)] ⟨2, ![1, 1]⟩
        (shapeCast ⟨3, ![1, a, 1]⟩ (multiReduction .add [(2 : Fin 3)] ⟨2, ![1, a]⟩ src acc h2 hφ hacc) hc)
        acc' h1 hφ' hacc' (ix2 (0 : Fin 1) (0 : Fin 1))
      = ∑ i : Fin a, ∑ j : Fin b, src (ix3 (0 : Fin 1) i j) :=
  (Ideal.multiReduction_add_single _ acc' h1 hφ' hacc' (ix2 (0 : Fin 1) (0 : Fin 1))).trans
    (Finset.sum_congr rfl fun i _ =>
      (congrArg _ (lift_row h1 0 0 i)).trans
        ((shapeCast_1a_1a1_apply _ hc 0 i 0).trans (lane_sum_apply src acc h2 hφ hacc 0 i)))

end Cert.Lib.Keepdims

end
-- ==== Proof.TileSums.lean ====
/-
  The two per-point terms of the body, read at their one cell over the extended reals.

  For blocks of 4096 positions: the squared-error term is the old total plus Σ_y Σ_c (out[y,c] − img[y,c])², and the
  log-probability term is the old total plus Σ_y Σ_c gt[y,c] · ((seg[y,c] − M_y) − log Σ_k exp(seg[y,k] − M_y)) with
  M_y the largest logit of row y taken from −∞.  Both are a lane sum kept as a unit lane and summed over the rows; the
  casts [1,1] → [1,1,1] → [1,1] around the result cancel, and the row maximum and the row's log-sum-exp reach every
  lane through the same unit lane.
-/
import proofs.«129317_j749_2_alg».proof.Proof.Gen.KernelIdeal.Skeleton
import proofs.«129317_j749_2_alg».proof.Proof.LibKeepdims
import proofs.«129317_j749_2_alg».proof.Proof.LossSpec

noncomputable section

open scoped BigOperators

namespace Cert.KernelIdeal.TileSums

open Cert.KernelIdeal Cert.KernelIdeal.Gen Cert.Lib.Keepdims Cert.LossSpec
open Idealize.ShloMosaic Idealize.ShloMosaic.ValueIdx

/-- The exponential and the logarithm of an array act entry by entry. -/
theorem exp_apply {s : Shape} {φ : FTy} (v : FVec Ideal s φ) (i : s.Idx) : exp v i = Ideal.exp (v i) := rfl
theorem log_apply {s : Shape} {φ : FTy} (v : FVec Ideal s φ) (i : s.Idx) : log v i = Ideal.log (v i) := rfl

/-- The squared-error term at its cell: the old total plus the block's sum of squared differences. -/
theorem sq_step (v3 v4 : Vec Ideal S1x4096x3 .f32) (v11 : Vec Ideal S1x1 .f32) :
    k0_pay4 (F := Ideal) v3 v4 v11 (ix2 (0 : Fin 1) (0 : Fin 1))
      = v11 (ix2 (0 : Fin 1) (0 : Fin 1)) + ∑ y : Fin 4096, ∑ ch : Fin 3,
          (v3 (ix3 (0 : Fin 1) y ch) - v4 (ix3 (0 : Fin 1) y ch))
            * (v3 (ix3 (0 : Fin 1) y ch) - v4 (ix3 (0 : Fin 1) y ch)) := by
  unfold k0_pay4
  dsimp only
  refine (congrFun (shapeCast_self _ _) _).trans ?_
  refine (addf_apply _ _ _).trans (congrArg (v11 (ix2 (0 : Fin 1) (0 : Fin 1)) + ·) ?_)
  refine (congrFun (shapeCast_shapeCast _ _ _) _).trans ?_
  exact sum_lanes_then_rows _ _ _ _ _ _ _ _ _ _

/-- Row y's largest logit in a block, taken from −∞. -/
def blockMax (v17 : Vec Ideal S1x4096x10 .f32) (y : Fin 4096) : EReal :=
  (Finset.univ : Finset (Fin 10)).fold max negInf (fun k => v17 (ix3 (0 : Fin 1) y k))

/-- The log-probability term at its cell: the old total plus the block's sum of target-weighted log-softmax values. -/
theorem ce_step (v17 v28 : Vec Ideal S1x4096x10 .f32) (v34 : Vec Ideal S1x1 .f32) :
    k0_pay1 (F := Ideal) (k0_pay5 v17 v28) v34 (ix2 (0 : Fin 1) (0 : Fin 1))
      = v34 (ix2 (0 : Fin 1) (0 : Fin 1)) + ∑ y : Fin 4096, ∑ ch : Fin 10,
          v28 (ix3 (0 : Fin 1) y ch)
            * ((v17 (ix3 (0 : Fin 1) y ch) - blockMax v17 y)
                - Ideal.log (∑ k : Fin 10, Ideal.exp (v17 (ix3 (0 : Fin 1) y k) - blockMax v17 y))) := by
  unfold k0_pay1 k0_pay5
  dsimp only
  refine (congrFun (shapeCast_self _ _) _).trans ?_
  refine (addf_apply _ _ _).trans (congrArg (v34 (ix2 (0 : Fin 1) (0 : Fin 1)) + ·) ?_)
  refine (congrFun (shapeCast_shapeCast _ _ _) _).trans ?_
  refine (sum_lanes_then_rows _ _ _ _ _ _ _ _ _ _).trans ?_
  refine Finset.sum_congr rfl fun y _ => Finset.sum_congr rfl fun ch _ => ?_
  have hM : multiReduction (F := Ideal) FKind.maximumf [2] S1x4096 v17 0xFF800000#32 reduces_S1x4096x10_S1x4096 (.inl rfl) rfl
      (ix2 (0 : Fin 1) y) = blockMax v17 y := lane_max_apply v17 _ _ _ _ 0 y
  have hS : ∀ w : FVec Ideal S1x4096x10 .f32, multiReduction (F := Ideal) FKind.add [2] S1x4096 w 0x00000000#32
      reduces_S1x4096x10_S1x4096 (.inl rfl) rfl (ix2 (0 : Fin 1) y) = ∑ k : Fin 10, w (ix3 (0 : Fin 1) y k) :=
    fun w => lane_sum_apply w _ _ _ _ 0 y
  simp only [mulf_apply, subf_apply, log_apply, keepdims_broadcast_apply, broadcastTo_1a1_1ab_apply,
    shapeCast_1a_1a1_apply, hS, exp_apply, hM]

end Cert.KernelIdeal.TileSums

end
-- ==== Proof.BlockRows.lean ====
/-
  The input blocks as rows of the whole arrays.

  The grid has 64 points; each of the four input windows has blocks of 4096 positions whose index map sends point t to
  block (0, t, 0).  A block's coordinate is index × block size + the coordinate inside the block, so entry (0, y, ch) of
  the block at point t is entry (0, 4096 t + y, ch) of the window's array: position 4096 t + y of the 262144.
-/
import proofs.«129317_j749_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem

namespace Cert.KernelIdeal.BlockRows

open Cert.KernelIdeal Cert.KernelIdeal.Gen Idealize.ShloMosaic.ValueIdx

variable {F : FTy → Type} [FloatOps F]
variable (m : (ℓ : Loc nD τ sig) → Buf (Elt F) ℓ)

/-- Position 4096 t + y is one of the 262144. -/
theorem row_lt (t : Fin cfg0.N) (y : Fin 4096) : t.val * 4096 + y.val < 262144 := by
  have hN : cfg0.N = 64 := N_0
  have := t.isLt; have := y.isLt; omega

theorem idx_facts0 : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)

/-- Window 0's block at point t, at (0, y, ch), is its array at (0, 4096 t + y, ch). -/
theorem iblk0_apply (c : Dev nD) (t : Fin cfg0.N) (y : Fin 4096) (ch : Fin 3) :
    (iblk m c 0 t : Vec F S1x4096x3 .f32) (ix3 (0 : Fin 1) y ch)
      = (V m c main_arg0 : Vec F S1x262144x3 .f32) (ix3 (0 : Fin 1) ⟨t.val * 4096 + y.val, row_lt t y⟩ ch) := by
  have hi := idx_facts0 t
  unfold iblk
  rw [View.read_apply]
  show (V m c main_arg0 : Vec F S1x262144x3 .f32) (((cfg0.win 0).blk t).view.emb (ix3 (0 : Fin 1) y ch)) = _
  refine congrArg (V m c main_arg0 : Vec F S1x262144x3 .f32) (funext fun a => Fin.ext ?_)
  match a with
  | ⟨0, _⟩ =>
    show win0_0.index t (0 : Fin 3) * 1 + 1 * 0 = 0
    rw [hi.1]
  | ⟨1, _⟩ =>
    show win0_0.index t (1 : Fin 3) * 4096 + 1 * y.val = t.val * 4096 + y.val
    rw [hi.2.1]; omega
  | ⟨2, _⟩ =>
    show win0_0.index t (2 : Fin 3) * 3 + 1 * ch.val = ch.val
    rw [hi.2.2]; omega

theorem idx_facts1 : ∀ t : Fin cfg0.N, win0_1.index t (0 : Fin 3) = 0 ∧ win0_1.index t (1 : Fin 3) = t.val ∧ win0_1.index t (2 : Fin 3) = 0 :=
  (by decide +kernel : ∀ t : Fin grid0.N, win0_1.index t (0 : Fin 3) = 0 ∧ win0_1.index t (1 : Fin 3) = t.val ∧ win0_1.index t (2 : Fin 3) = 0)

/-- Window 1's block at point t, at (0, y, ch), is its array at (0, 4096 t + y, ch). -/
theorem iblk1_apply (c : Dev nD) (t : Fin cfg0.N) (y : Fin 4096) (ch : Fin 3) :
    (iblk m c 1 t : Vec F S1x4096x3 .f32) (ix3 (0 : Fin 1) y ch)
      = (V m c main_arg2 : Vec F S1x262144x3 .f32) (ix3 (0 : Fin 1) ⟨t.val * 4096 + y.val, row_lt t y⟩ ch) := by
  have hi := idx_facts1 t
  unfold iblk
  rw [View.read_apply]
  show (V m c main_arg2 : Vec F S1x262144x3 .f32) (((cfg0.win 1).blk t).view.emb (ix3 (0 : Fin 1) y ch)) = _
  refine congrArg (V m c main_arg2 : Vec F S1x262144x3 .f32) (funext fun a => Fin.ext ?_)
  match a with
  | ⟨0, _⟩ =>
    show win0_1.index t (0 : Fin 3) * 1 + 1 * 0 = 0
    rw [hi.1]
  | ⟨1, _⟩ =>
    show win0_1.index t (1 : Fin 3) * 4096 + 1 * y.val = t.val * 4096 + y.val
    rw [hi.2.1]; omega
  | ⟨2, _⟩ =>
    show win0_1.index t (2 : Fin 3) * 3 + 1 * ch.val = ch.val
    rw [hi.2.2]; omega

theorem idx_facts2 : ∀ t : Fin cfg0.N, win0_2.index t (0 : Fin 3) = 0 ∧ win0_2.index t (1 : Fin 3) = t.val ∧ win0_2.index t (2 : Fin 3) = 0 :=
  (by decide +kernel : ∀ t : Fin grid0.N, win0_2.index t (0 : Fin 3) = 0 ∧ win0_2.index t (1 : Fin 3) = t.val ∧ win0_2.index t (2 : Fin 3) = 0)

/-- Window 2's block at point t, at (0, y, ch), is its array at (0, 4096 t + y, ch). -/
theorem iblk2_apply (c : Dev nD) (t : Fin cfg0.N) (y : Fin 4096) (ch : Fin 10) :
    (iblk m c 2 t : Vec F S1x4096x10 .f32) (ix3 (0 : Fin 1) y ch)
      = (V m c main_arg1 : Vec F S1x262144x10 .f32) (ix3 (0 : Fin 1) ⟨t.val * 4096 + y.val, row_lt t y⟩ ch) := by
  have hi := idx_facts2 t
  unfold iblk
  rw [View.read_apply]
  show (V m c main_arg1 : Vec F S1x262144x10 .f32) (((cfg0.win 2).blk t).view.emb (ix3 (0 : Fin 1) y ch)) = _
  refine congrArg (V m c main_arg1 : Vec F S1x262144x10 .f32) (funext fun a => Fin.ext ?_)
  match a with
  | ⟨0, _⟩ =>
    show win0_2.index t (0 : Fin 3) * 1 + 1 * 0 = 0
    rw [hi.1]
  | ⟨1, _⟩ =>
    show win0_2.index t (1 : Fin 3) * 4096 + 1 * y.val = t.val * 4096 + y.val
    rw [hi.2.1]; omega
  | ⟨2, _⟩ =>
    show win0_2.index t (2 : Fin 3) * 10 + 1 * ch.val = ch.val
    rw [hi.2.2]; omega

theorem idx_facts3 : ∀ t : Fin cfg0.N, win0_3.index t (0 : Fin 3) = 0 ∧ win0_3.index t (1 : Fin 3) = t.val ∧ win0_3.index t (2 : Fin 3) = 0 :=
  (by decide +kernel : ∀ t : Fin grid0.N, win0_3.index t (0 : Fin 3) = 0 ∧ win0_3.index t (1 : Fin 3) = t.val ∧ win0_3.index t (2 : Fin 3) = 0)

/-- Window 3's block at point t, at (0, y, ch), is its array at (0, 4096 t + y, ch). -/
theorem iblk3_apply (c : Dev nD) (t : Fin cfg0.N) (y : Fin 4096) (ch : Fin 10) :
    (iblk m c 3 t : Vec F S1x4096x10 .f32) (ix3 (0 : Fin 1) y ch)
      = (V m c main_arg3 : Vec F S1x262144x10 .f32) (ix3 (0 : Fin 1) ⟨t.val * 4096 + y.val, row_lt t y⟩ ch) := by
  have hi := idx_facts3 t
  unfold iblk
  rw [View.read_apply]
  show (V m c main_arg3 : Vec F S1x262144x10 .f32) (((cfg0.win 3).blk t).view.emb (ix3 (0 : Fin 1) y ch)) = _
  refine congrArg (V m c main_arg3 : Vec F S1x262144x10 .f32) (funext fun a => Fin.ext ?_)
  match a with
  | ⟨0, _⟩ =>
    show win0_3.index t (0 : Fin 3) * 1 + 1 * 0 = 0
    rw [hi.1]
  | ⟨1, _⟩ =>
    show win0_3.index t (1 : Fin 3) * 4096 + 1 * y.val = t.val * 4096 + y.val
    rw [hi.2.1]; omega
  | ⟨2, _⟩ =>
    show win0_3.index t (2 : Fin 3) * 10 + 1 * ch.val = ch.val
    rw [hi.2.2]; omega

end Cert.KernelIdeal.BlockRows

end
-- ==== Proof.KernelTotals.lean ====
/-
  The kernel's two totals after the last grid point, over the extended reals.

  At point t the squared-error term adds Σ_y Σ_c (out − img)² over rows 4096 t, …, 4096 t + 4095 of the two image arrays
  to the old total, and the log-probability term adds Σ_y Σ_c gt · logsoftmax(seg) over the same rows of the two class
  arrays (the row maximum of a block's row is the row maximum of that row of the array).  The totals start from the zero
  word at the first point, so after the 64th they are the zero word plus the sums over all 262144 rows: a sum over
  64 · 4096 consecutive rows taken tile by tile.
-/
import proofs.«129317_j749_2_alg».proof.Proof.RunningTotals
import proofs.«129317_j749_2_alg».proof.Proof.TileSums
import proofs.«129317_j749_2_alg».proof.Proof.BlockRows

noncomputable section

open scoped BigOperators
open Idealize.ShloMosaic Idealize.ShloMosaic.TcCoe Idealize.SL.Sem

namespace Cert.KernelIdeal.Totals

open Cert.KernelIdeal Cert.KernelIdeal.Gen Cert.KernelIdeal.RunningTotals Cert.KernelIdeal.TileSums
open Cert.KernelIdeal.BlockRows Cert.LossSpec Idealize.ShloMosaic.ValueIdx

variable (m : (ℓ : Loc nD τ sig) → Buf (Elt Ideal) ℓ)

/-- The four float arrays the region reads, as the region finds them. -/
abbrev img (c : Dev nD) : SImg.Idx → EReal := V m c main_arg0
abbrev out (c : Dev nD) : SImg.Idx → EReal := V m c main_arg2
abbrev gt (c : Dev nD) : SSeg.Idx → EReal := V m c main_arg1
abbrev seg (c : Dev nD) : SSeg.Idx → EReal := V m c main_arg3

/-- At point t the squared-error term is the old total plus the squared error of rows 4096 t, …, 4096 t + 4095. -/
theorem sq_point (c : Dev nD) (t : Fin cfg0.N) (acc : Vec Ideal S1x1 .f32) :
    k0_pay4 (F := Ideal) (iblk m c 1 t) (iblk m c 0 t) acc (ix2 (0 : Fin 1) (0 : Fin 1))
      = acc (ix2 (0 : Fin 1) (0 : Fin 1))
        + ∑ y : Fin 4096, sqRow (img m c) (out m c) ⟨t.val * 4096 + y.val, row_lt t y⟩ := by
  refine (sq_step (iblk m c 1 t) (iblk m c 0 t) acc).trans
    (congrArg (acc (ix2 (0 : Fin 1) (0 : Fin 1)) + ·) ?_)
  refine Finset.sum_congr rfl fun y _ => ?_
  unfold sqRow sqAt
  refine Finset.sum_congr rfl fun ch _ => ?_
  rw [iblk1_apply m c t y ch, iblk0_apply m c t y ch]

/-- The largest logit of row y of the block at point t is the largest logit of row 4096 t + y of the array. -/
theorem blockMax_eq (c : Dev nD) (t : Fin cfg0.N) (y : Fin 4096) :
    blockMax (iblk m c 3 t) y = rowMax (seg m c) ⟨t.val * 4096 + y.val, row_lt t y⟩ := by
  unfold blockMax rowMax
  exact congrArg (fun f => (Finset.univ : Finset (Fin 10)).fold max negInf f)
    (funext fun k => iblk3_apply m c t y k)

/-- At point t the log-probability term is the old total plus that of rows 4096 t, …, 4096 t + 4095. -/
theorem ce_point (c : Dev nD) (t : Fin cfg0.N) (acc : Vec Ideal S1x1 .f32) :
    k0_pay1 (F := Ideal) (k0_pay5 (iblk m c 3 t) (iblk m c 2 t)) acc (ix2 (0 : Fin 1) (0 : Fin 1))
      = acc (ix2 (0 : Fin 1) (0 : Fin 1))
        + ∑ y : Fin 4096, ceRow (gt m c) (seg m c) ⟨t.val * 4096 + y.val, row_lt t y⟩ := by
  refine (ce_step (iblk m c 3 t) (iblk m c 2 t) acc).trans
    (congrArg (acc (ix2 (0 : Fin 1) (0 : Fin 1)) + ·) ?_)
  refine Finset.sum_congr rfl fun y _ => ?_
  unfold ceRow logSoftmax shifted
  refine Finset.sum_congr rfl fun ch _ => ?_
  simp only [blockMax_eq m c t y, iblk2_apply m c t y, iblk3_apply m c t y]

/-- The zeros the first point stores are the zero word. -/
theorem zero_sq : k0_pay2 (F := Ideal) (ix2 (0 : Fin 1) (0 : Fin 1)) = Ideal.ofBits .f32 0x00000000#32 := by
  unfold k0_pay2
  exact (congrFun (shapeCast_self _ _) _).trans rfl
theorem zero_ce : k0_pay3 (F := Ideal) (ix2 (0 : Fin 1) (0 : Fin 1)) = Ideal.ofBits .f32 0x00000000#32 := by
  unfold k0_pay3
  exact (congrFun (shapeCast_self _ _) _).trans rfl

/-- Each of the 64 points is a grid point. -/
theorem lt64 (t : Fin 64) : t.val < cfg0.N := by
  have hN : cfg0.N = 64 := N_0
  rw [hN]; exact t.isLt

/-- After the last point the squared-error total is the zero word plus the total squared error. -/
theorem sq_final (c : Dev nD) :
    (totals m c 63 (lt64 63)).1 (ix2 (0 : Fin 1) (0 : Fin 1))
      = Ideal.ofBits .f32 0x00000000#32 + sqTotal (img m c) (out m c) :=
  accumulated_tiles (fun t : Fin 64 => (totals m c t.val (lt64 t)).1 (ix2 (0 : Fin 1) (0 : Fin 1)))
    (fun r => sqRow (img m c) (out m c) r) (Ideal.ofBits .f32 0x00000000#32)
    ((sq_point m c ⟨0, lt64 0⟩ (k0_pay2 (F := Ideal))).trans (congrArg (· + _) zero_sq))
    (fun t h => sq_point m c ⟨t + 1, lt64 ⟨t + 1, h⟩⟩ (totals m c t (lt64 ⟨t, Nat.lt_of_succ_lt h⟩)).1)

/-- After the last point the log-probability total is the zero word plus the total over all positions. -/
theorem ce_final (c : Dev nD) :
    (totals m c 63 (lt64 63)).2 (ix2 (0 : Fin 1) (0 : Fin 1))
      = Ideal.ofBits .f32 0x00000000#32 + ceTotal (gt m c) (seg m c) :=
  accumulated_tiles (fun t : Fin 64 => (totals m c t.val (lt64 t)).2 (ix2 (0 : Fin 1) (0 : Fin 1)))
    (fun r => ceRow (gt m c) (seg m c) r) (Ideal.ofBits .f32 0x00000000#32)
    ((ce_point m c ⟨0, lt64 0⟩ (k0_pay3 (F := Ideal))).trans (congrArg (· + _) zero_ce))
    (fun t h => ce_point m c ⟨t + 1, lt64 ⟨t + 1, h⟩⟩ (totals m c t (lt64 ⟨t, Nat.lt_of_succ_lt h⟩)).2)

end Cert.KernelIdeal.Totals

end
-- ==== Proof.KernelValue.lean ====
/-
  The kernel program's result is the loss of its arguments.

  The region leaves the two totals in its result arrays: the zero word plus the total squared error, and the zero word
  plus the total target-weighted log-probability.  The host operations after it form the three weighted terms.  Over the
  extended reals the zero word is 0 and 0 + x = x; the kernel negates the log-probability total before dividing it by
  262144, and (−x)/c = −(x/c) for that nonzero c.  So the result is the loss of the arguments as launched, and the run
  ends with every argument unchanged.
-/
import proofs.«129317_j749_2_alg».proof.Proof.HostTail
import proofs.«129317_j749_2_alg».proof.Proof.KernelTotals

noncomputable section

open scoped BigOperators
open Idealize.ShloMosaic Idealize.ShloMosaic.TcCoe Idealize.SL.Sem Idealize.ShloMosaic.StableHlo
open Idealize.ShloMosaic.Pipeline (Dat)

namespace Cert.KernelIdeal.LossValue

open Cert.KernelIdeal Cert.KernelIdeal.Gen Cert.KernelIdeal.Outputs Cert.KernelIdeal.HostTail Cert.KernelIdeal.Totals
open Cert.LossSpec Idealize.ShloMosaic.ValueIdx

variable (m : (ℓ : Loc nD τ sig) → Buf (Elt Ideal) ℓ) (ρ : Dev nD → PrngReg)

/-- The loss of the arguments as launched on core c; the three index vectors enter as start-index columns. -/
def lossOf (c : Dev nD) : EReal :=
  loss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (col (F := Ideal) (m ((c.tc : Thread nD τ).loc main_arg5))) (col (F := Ideal) (m ((c.tc : Thread nD τ).loc main_arg6))) (col (F := Ideal) (m ((c.tc : Thread nD τ).loc main_arg7)))

/-- The program's result after the region, at its one index, is that loss. -/
theorem result_apply (c : Dev nD) (i : S_.Idx) :
    (Pipeline.afterTail₀ cfgs (dats m) 0 (V0 m) [hostOps1, hostOps1_1, hostOps1_2] c main_v43 : S_.Idx → EReal) i
      = lossOf m c := by
  have hs : sqOut m c (ix2 (0 : Fin 1) (0 : Fin 1))
      = Ideal.ofBits .f32 0x00000000#32 + sqTotal (m ((c.tc : Thread nD τ).loc main_arg0)) (m ((c.tc : Thread nD τ).loc main_arg2)) := sq_final m c
  have hc : ceOut m c (ix2 (0 : Fin 1) (0 : Fin 1))
      = Ideal.ofBits .f32 0x00000000#32 + ceTotal (m ((c.tc : Thread nD τ).loc main_arg1)) (m ((c.tc : Thread nD τ).loc main_arg3)) := ce_final m c
  rw [tail_eq, tail_apply, hs, hc]
  unfold lossOf loss triplet hinge
  simp only [Ideal.ofBits_zero_f32, zero_add, div_neg_262144]

/-- Every weakly fair execution of the kernel program terminates with its result at the loss of the arguments and the
    arguments unchanged. -/
theorem run : θ_run defs (onTc (τ := τ) (main (F := Ideal))) ⟨m, fun _ => 0, ρ⟩ fun r => ∀ c : Dev nD,
      r.2.mem ((c.tc : Thread nD τ).loc main_v43) = (fun _ => lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v43 (Pipeline.mem_restRefs_of main_v43 (by decide) (by decide))).trans
        (funext fun i => result_apply m c i),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.LossValue

end
-- ==== Proof.RefCrossEntropy.lean ====
/-
  The reference's cross-entropy sum, read at an index over the extended reals.

  Row r's maximum is the host's reduce with max from −∞, then once more the maximum with −∞ (which changes nothing);
  the shifted logits, their exponentials' sum, its logarithm and the target-weighted sum follow operation by operation,
  each host sum being the zero word plus the exact sum.  So the per-row value is the zero word plus the row's
  target-weighted log-softmax with the log taken of the zero word plus the sum of exponentials, and the total over
  all positions is the zero word plus the sum of those.
-/
import proofs.«129317_j749_2_alg».proof.Proof.RefReadP
import proofs.«129317_j749_2_alg».proof.Proof.LibKeepdims
import proofs.«129317_j749_2_alg».proof.Proof.LossSpec

noncomputable section

open scoped BigOperators

namespace Cert.ReferenceIdeal.RefCE

open Cert.ReferenceIdeal Cert.ReferenceIdeal.Gen Cert.ReferenceIdeal.ReadP Cert.LossSpec Cert.Lib.Keepdims
open Idealize.ShloMosaic Idealize.ShloMosaic.ValueIdx

variable (x1 x3 : (⟨S1x262144x10, .f32⟩ : BufTy).Contents (Elt Ideal))

/-- The zero word is the extended real 0. -/
theorem zw : (Ideal.ofBits .f32 0x00000000#32 : EReal) = 0 := Ideal.ofBits_zero_f32

/-- Row r's maximum as the reference takes it is the row's maximum from −∞. -/
theorem max_apply (r : Fin 262144) :
    val_main_call0_v2 (F := Ideal) x3 (ix2 (0 : Fin 1) r) = rowMax x3 r := by
  have h0 : val_main_call0_v0 (F := Ideal) x3 (ix2 (0 : Fin 1) r) = rowMax x3 r := by
    unfold val_main_call0_v0 rowMax
    refine (Host.reduce_eq_fold_single (α := EReal) (FloatOps.maximumf (F := Ideal) (φ := .f32)) x3
      (val_main_call0_cst (F := Ideal)) reducesTo_S1x262144x10_S1x262144_d2 (by decide) h_S_
      (ix2 (0 : Fin 1) r)).trans ?_
    exact congrArg (fun f => (Finset.univ : Finset (Fin 10)).fold max negInf f)
      (funext fun k => congrArg x3 (lift_lane _ 0 r k))
  rw [val_main_call0_v2_apply, h0, val_main_call0_v1_apply, val_main_call0_cst_0_apply]
  exact max_start_fold _ _ _

/-- The broadcasts of a row statistic read it at the row: the index they read is (0, r). -/
theorem idx_max (r : Fin 262144) (k : Fin 10) :
    idx_main_call0_v3 (idx_main_call0_v4 (ix3 (0 : Fin 1) r k)) = ix2 (0 : Fin 1) r :=
  funext fun a => Fin.ext (by match a with | ⟨0, _⟩ => rfl | ⟨1, _⟩ => rfl)
theorem idx_lse (r : Fin 262144) (k : Fin 10) :
    idx_main_call0_v8 (idx_main_call0_v10 (ix3 (0 : Fin 1) r k)) = ix2 (0 : Fin 1) r :=
  funext fun a => Fin.ext (by match a with | ⟨0, _⟩ => rfl | ⟨1, _⟩ => rfl)
theorem idx_lane7 (r : Fin 262144) (k : Fin 10) : idx_main_call0_v7 (ix2 (0 : Fin 1) r) k = ix3 (0 : Fin 1) r k :=
  funext fun a => Fin.ext (by match a with | ⟨0, _⟩ => rfl | ⟨1, _⟩ => rfl | ⟨2, _⟩ => rfl)
theorem idx_lane6 (r : Fin 262144) (k : Fin 10) : idx_main_v6 (ix2 (0 : Fin 1) r) k = ix3 (0 : Fin 1) r k :=
  funext fun a => Fin.ext (by match a with | ⟨0, _⟩ => rfl | ⟨1, _⟩ => rfl | ⟨2, _⟩ => rfl)

/-- A logit less its row's maximum. -/
theorem shifted_apply (r : Fin 262144) (k : Fin 10) :
    val_main_call0_v5 (F := Ideal) x3 (ix3 (0 : Fin 1) r k) = shifted x3 r k := by
  rw [val_main_call0_v5_apply, val_main_call0_v4_apply, val_main_call0_v3_apply, idx_max, max_apply]
  rfl

/-- The logarithm of the row's sum of exponentials, as the reference takes it: of the zero word plus the sum. -/
theorem lse_apply (r : Fin 262144) (k : Fin 10) :
    val_main_call0_v10 (F := Ideal) x3 (ix3 (0 : Fin 1) r k)
      = Ideal.log (Ideal.ofBits .f32 0x00000000#32 + ∑ j : Fin 10, Ideal.exp (shifted x3 r j)) := by
  rw [val_main_call0_v10_apply, val_main_call0_v9_apply, val_main_call0_v8_apply, idx_lse, val_main_call0_v7_apply]
  simp only [idx_lane7, val_main_call0_v6_apply, shifted_apply, val_main_call0_cst_1_apply, Ideal.hostUnary_log_def,
    Ideal.hostUnary_exp_def, Ideal.ofBits_def]

/-- Row r's value: the zero word plus the target-weighted log-probabilities. -/
theorem row_apply (r : Fin 262144) :
    val_main_v6 (F := Ideal) x1 x3 (ix2 (0 : Fin 1) r)
      = Ideal.ofBits .f32 0x00000000#32 + ∑ k : Fin 10, x1 (ix3 (0 : Fin 1) r k)
          * (shifted x3 r k - Ideal.log (Ideal.ofBits .f32 0x00000000#32 + ∑ j : Fin 10, Ideal.exp (shifted x3 r j))) := by
  rw [val_main_v6_apply]
  simp only [idx_lane6, val_main_v5_apply, val_main_v4_apply, shifted_apply, lse_apply, val_main_cst_1_apply,
    Ideal.mulf_def, Ideal.subf_def, Ideal.ofBits_def]

/-- The total over all positions is the total target-weighted log-probability. -/
theorem total_apply (i : S_.Idx) : val_main_v7 (F := Ideal) x1 x3 i = ceTotal x1 x3 := by
  rw [val_main_v7_apply, sum_idx2_one]
  simp only [row_apply, val_main_cst_2_apply, Ideal.ofBits_def, zw, zero_add]
  rfl

end Cert.ReferenceIdeal.RefCE

end
-- ==== Proof.RefLoss.lean ====
/-
  The reference's result is the loss of its arguments.

  Operation by operation over the extended reals: the squared differences summed over every index, from the zero word,
  are the total squared error; the cross-entropy total is read in its own module; each gather reads the feature row its
  start index names; the sum of squared row differences over the outer axis (one entry) and the 64 features is the
  squared distance; the square roots, their difference cut at zero and the sum over the 4096 triplets give the triplet
  term.  With the zero word 0 and 0 + x = x, the three weighted terms are the loss.  The index vectors enter as the
  start-index columns the program forms from them.
-/
import proofs.«129317_j749_2_alg».proof.Proof.RefCrossEntropy
import proofs.«129317_j749_2_alg».proof.Proof.LibHostRead

noncomputable section

open scoped BigOperators

namespace Cert.ReferenceIdeal.RefLoss

open Cert.ReferenceIdeal Cert.ReferenceIdeal.Gen Cert.ReferenceIdeal.ReadP Cert.ReferenceIdeal.RefCE
open Cert.LossSpec Cert.Lib.HostRead Idealize.ShloMosaic Idealize.ShloMosaic.ValueIdx

/-! ## The squared error -/

/-- The sum of the squared differences over every index is the total squared error. -/
theorem sq_apply (x0 x2 : (⟨S1x262144x3, .f32⟩ : BufTy).Contents (Elt Ideal)) (i : S_.Idx) : val_main_v2 (F := Ideal) x0 x2 i = sqTotal x0 x2 := by
  rw [val_main_v2_apply, sum_idx3_one]
  simp only [val_main_v1_apply, val_main_v0_apply, val_main_cst_apply, Ideal.mulf_def, Ideal.subf_def, Ideal.ofBits_def,
    zw, zero_add]
  rfl

/-! ## The triplet term -/

variable (x4 : (⟨S1x262144x64, .f32⟩ : BufTy).Contents (Elt Ideal)) (x5 x6 x7 : (⟨S4096, .i32⟩ : BufTy).Contents (Elt Ideal))

/-- The anchor rows: entry d of the row the anchor's start index names. -/
theorem gather_a (e : Fin 4096) (d : Fin 64) :
    val_main_v16 (F := Ideal) x4 x5 (ix3 (0 : Fin 1) e d)
      = x4 (ix3 (0 : Fin 1) (rowAt (val_main_v15 (F := Ideal) x5) e) d) := by
  unfold val_main_v16
  exact gather_outer_rows_apply (N := 262144) (R := 4096) (C := 64) (by norm_num)
    gather_S1x262144x64_S4096x1_S1x4096x64_02_1_n_n_1_1_1164_wf _ _ 0 e d

/-- The positive rows. -/
theorem gather_p (e : Fin 4096) (d : Fin 64) :
    val_main_v23 (F := Ideal) x4 x6 (ix3 (0 : Fin 1) e d)
      = x4 (ix3 (0 : Fin 1) (rowAt (val_main_v22 (F := Ideal) x6) e) d) := by
  unfold val_main_v23
  exact gather_outer_rows_apply (N := 262144) (R := 4096) (C := 64) (by norm_num)
    gather_S1x262144x64_S4096x1_S1x4096x64_02_1_n_n_1_1_1164_wf _ _ 0 e d

/-- The negative rows. -/
theorem gather_n (e : Fin 4096) (d : Fin 64) :
    val_main_v30 (F := Ideal) x4 x7 (ix3 (0 : Fin 1) e d)
      = x4 (ix3 (0 : Fin 1) (rowAt (val_main_v29 (F := Ideal) x7) e) d) := by
  unfold val_main_v30
  exact gather_outer_rows_apply (N := 262144) (R := 4096) (C := 64) (by norm_num)
    gather_S1x262144x64_S4096x1_S1x4096x64_02_1_n_n_1_1_1164_wf _ _ 0 e d

/-- The anchor-to-positive squared distance of triplet e, from the zero word. -/
theorem sqdist_pos (e : Fin 4096) :
    val_main_v33 (F := Ideal) x4 x5 x6 (ix1 e)
      = Ideal.ofBits .f32 0x00000000#32
        + sqDist x4 (val_main_v15 (F := Ideal) x5) (val_main_v22 (F := Ideal) x6) e := by
  unfold val_main_v33 sqDist
  refine (hostReduceAdd_outer_last _ _ _ _ e).trans ?_
  simp only [val_main_v32_apply, val_main_v31_apply, gather_a, gather_p, val_main_cst_9_apply, Ideal.mulf_def,
    Ideal.subf_def, Ideal.ofBits_def]

/-- The anchor-to-negative squared distance of triplet e, from the zero word. -/
theorem sqdist_neg (e : Fin 4096) :
    val_main_v37 (F := Ideal) x4 x5 x7 (ix1 e)
      = Ideal.ofBits .f32 0x00000000#32
        + sqDist x4 (val_main_v15 (F := Ideal) x5) (val_main_v29 (F := Ideal) x7) e := by
  unfold val_main_v37 sqDist
  refine (hostReduceAdd_outer_last _ _ _ _ e).trans ?_
  simp only [val_main_v36_apply, val_main_v35_apply, gather_a, gather_n, val_main_cst_10_apply, Ideal.mulf_def,
    Ideal.subf_def, Ideal.ofBits_def]

/-- The hinges summed over the triplets are the triplet term. -/
theorem triplet_apply (i : S_.Idx) :
    val_main_v41 (F := Ideal) x4 x5 x6 x7 i
      = triplet x4 (val_main_v15 (F := Ideal) x5) (val_main_v22 (F := Ideal) x6) (val_main_v29 (F := Ideal) x7) := by
  rw [val_main_v41_apply, sum_idx1]
  have hz : ∀ e : Fin 4096, val_main_call1_v0 (F := Ideal) (ix1 e) = Ideal.ofBits .f32 0x00000000#32 := fun e => by
    rw [val_main_call1_v0_apply, val_main_call1_cst_apply]; rfl
  simp only [val_main_v40_apply, val_main_v39_apply, val_main_v34_apply, val_main_v38_apply, sqdist_pos, sqdist_neg, hz,
    val_main_cst_11_apply, Ideal.maximumf_def, Ideal.subf_def, Ideal.hostUnary_sqrt_def, Ideal.ofBits_def, zw, zero_add]
  rfl

/-! ## The loss -/

/-- The reference's result term, at its one index, is the loss of its arguments. -/
theorem loss_apply (x0 : (⟨S1x262144x3, .f32⟩ : BufTy).Contents (Elt Ideal)) (x1 : (⟨S1x262144x10, .f32⟩ : BufTy).Contents (Elt Ideal)) (x2 : (⟨S1x262144x3, .f32⟩ : BufTy).Contents (Elt Ideal))
    (x3 : (⟨S1x262144x10, .f32⟩ : BufTy).Contents (Elt Ideal)) (i : S_.Idx) :
    val_main_v46 (F := Ideal) x0 x1 x2 x3 x4 x5 x6 x7 i
      = loss x0 x1 x2 x3 x4 (val_main_v15 (F := Ideal) x5) (val_main_v22 (F := Ideal) x6)
          (val_main_v29 (F := Ideal) x7) := by
  rw [val_main_v46_apply, val_main_v44_apply, val_main_v45_apply, val_main_v42_apply, val_main_v43_apply,
    val_main_v3_apply, val_main_v9_apply, val_main_v8_apply, sq_apply, total_apply, triplet_apply]
  simp only [val_main_cst_12_apply, val_main_cst_13_apply, val_main_cst_14_apply, val_main_cst_0_apply,
    val_main_cst_3_apply, Ideal.addf_def, Ideal.mulf_def, Ideal.hostDivf_def, Ideal.hostNegf_def, Ideal.negf_def,
    Ideal.ofBits_def]
  rfl

end Cert.ReferenceIdeal.RefLoss

end
-- ==== Proof.RefFold.lean ====
/-
  The reference program's operations, folded part by part.

  The program is a straight line of 80 host operations in five parts: the squared-error mean (6 operations), the
  log-softmax (15, an outlined function's operations standing at its call), the negated cross-entropy mean (8), the
  triplet sum (43), and the weighted total (8).  The fold of the whole line over a valuation is the fold of each part
  over the fold of the parts before it.  Each part, from ANY valuation, leaves in the one buffer later parts read the
  stage of the operation-by-operation reading applied to the buffers it reads, and leaves every buffer it does not write
  as it was.  The outlined function's operations move contents to each buffer's own type and back; such a round trip is
  the identity.  So the fold of the whole line, read at the result buffer, is the last stage of the argument buffers.
-/
import proofs.«129317_j749_2_alg».proof.Proof.RefReadP
import Idealize.ShloMosaic.Lib.Pipeline.Frame

noncomputable section

open Idealize.ShloMosaic Idealize.ShloMosaic.TcCoe Idealize.SL.Sem Idealize.ShloMosaic.StableHlo

namespace Cert.ReferenceIdeal.RefFold

open Cert.ReferenceIdeal Cert.ReferenceIdeal.Gen Cert.ReferenceIdeal.ReadP

variable {F : FTy → Type} [FloatOps F]

/-! ## The five parts -/

/-- The squared-error mean. -/
abbrev opsA : List (HloOp τ sig (Elt F)) :=
  [ binary main_arg2 main_arg0 main_v0 (subf : (⟨S1x262144x3, .f32⟩ : BufTy).Contents (Elt F) → (⟨S1x262144x3, .f32⟩ : BufTy).Contents (Elt F) → (⟨S1x262144x3, .f32⟩ : BufTy).Contents (Elt F)),
    binary main_v0 main_v0 main_v1 (mulf : (⟨S1x262144x3, .f32⟩ : BufTy).Contents (Elt F) → (⟨S1x262144x3, .f32⟩ : BufTy).Contents (Elt F) → (⟨S1x262144x3, .f32⟩ : BufTy).Contents (Elt F)),
    nullary main_cst (constant S_ .f32 0x00000000#32),
    binary main_v1 main_cst main_v2 ((fun x v => Host.reduceAdd x v reducesTo_S1x262144x3_S_d0_1_2 h_S_) : (⟨S1x262144x3, .f32⟩ : BufTy).Contents (Elt F) → (⟨S_, .f32⟩ : BufTy).Contents (Elt F) → (⟨S_, .f32⟩ : BufTy).Contents (Elt F)),
    nullary main_cst_0 (constant S_ .f32 0x49400000#32),
    binary main_v2 main_cst_0 main_v3 (Host.divf : (⟨S_, .f32⟩ : BufTy).Contents (Elt F) → (⟨S_, .f32⟩ : BufTy).Contents (Elt F) → (⟨S_, .f32⟩ : BufTy).Contents (Elt F)) ]

/-- The log-softmax: the outlined function's operations, at its call. -/
abbrev opsB1 : List (HloOp τ sig (Elt F)) :=
  [ TRef.nullary (TRef.of (T := ⟨S_, .f32⟩) main_call0_cst) (constant S_ .f32 0xFF800000#32),
    TRef.binary (TRef.of (T := ⟨S1x262144x10, .f32⟩) main_arg3) (TRef.of (T := ⟨S_, .f32⟩) main_call0_cst) (TRef.of (T := ⟨S1x262144, .f32⟩) main_call0_v0) (fun x v => Host.reduce FloatOps.maximumf x v reducesTo_S1x262144x10_S1x262144_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S1x262144, .f32⟩) main_call0_v1) (broadcastInDim S1x262144 ![] bcast_S_S1x262144),
    TRef.binary (TRef.of (T := ⟨S1x262144, .f32⟩) main_call0_v1) (TRef.of (T := ⟨S1x262144, .f32⟩) main_call0_v0) (TRef.of (T := ⟨S1x262144, .f32⟩) main_call0_v2) maximumf,
    TRef.unary (TRef.of (T := ⟨S1x262144, .f32⟩) main_call0_v2) (TRef.of (T := ⟨S1x262144x1, .f32⟩) main_call0_v3) (broadcastInDim S1x262144x1 ![0, 1] bcast_S1x262144_S1x262144x1_0_1),
    TRef.unary (TRef.of (T := ⟨S1x262144x1, .f32⟩) main_call0_v3) (TRef.of (T := ⟨S1x262144x10, .f32⟩) main_call0_v4) (broadcastInDim S1x262144x10 ![0, 1, 2] bcast_S1x262144x1_S1x262144x10_0_1_2),
    TRef.binary (TRef.of (T := ⟨S1x262144x10, .f32⟩) main_arg3) (TRef.of (T := ⟨S1x262144x10, .f32⟩) main_call0_v4) (TRef.of (T := ⟨S1x262144x10, .f32⟩) main_call0_v5) subf,
    TRef.unary (TRef.of (T := ⟨S1x262144x10, .f32⟩) main_call0_v5) (TRef.of (T := ⟨S1x262144x10, .f32⟩) main_call0_v6) Host.exp,
    TRef.nullary (TRef.of (T := ⟨S_, .f32⟩) main_call0_cst_1) (constant S_ .f32 0x00000000#32),
    TRef.binary (TRef.of (T := ⟨S1x262144x10, .f32⟩) main_call0_v6) (TRef.of (T := ⟨S_, .f32⟩) main_call0_cst_1) (TRef.of (T := ⟨S1x262144, .f32⟩) main_call0_v7) (fun x v => Host.reduceAdd x v reducesTo_S1x262144x10_S1x262144_d2 h_S_),
    TRef.unary (TRef.of (T := ⟨S1x262144, .f32⟩) main_call0_v7) (TRef.of (T := ⟨S1x262144x1, .f32⟩) main_call0_v8) (broadcastInDim S1x262144x1 ![0, 1] bcast_S1x262144_S1x262144x1_0_1),
    TRef.unary (TRef.of (T := ⟨S1x262144x1, .f32⟩) main_call0_v8) (TRef.of (T := ⟨S1x262144x1, .f32⟩) main_call0_v9) Host.log,
    TRef.unary (TRef.of (T := ⟨S1x262144x1, .f32⟩) main_call0_v9) (TRef.of (T := ⟨S1x262144x10, .f32⟩) main_call0_v10) (broadcastInDim S1x262144x10 ![0, 1, 2] bcast_S1x262144x1_S1x262144x10_0_1_2),
    TRef.binary (TRef.of (T := ⟨S1x262144x10, .f32⟩) main_call0_v5) (TRef.of (T := ⟨S1x262144x10, .f32⟩) main_call0_v10) (TRef.of (T := ⟨S1x262144x10, .f32⟩) main_v4) subf ]

/-- The negated cross-entropy mean. -/
abbrev opsB2 : List (HloOp τ sig (Elt F)) :=
  [ binary main_arg1 main_v4 main_v5 (mulf : (⟨S1x262144x10, .f32⟩ : BufTy).Contents (Elt F) → (⟨S1x262144x10, .f32⟩ : BufTy).Contents (Elt F) → (⟨S1x262144x10, .f32⟩ : BufTy).Contents (Elt F)),
    nullary main_cst_1 (constant S_ .f32 0x00000000#32),
    binary main_v5 main_cst_1 main_v6 ((fun x v => Host.reduceAdd x v reducesTo_S1x262144x10_S1x262144_d2 h_S_) : (⟨S1x262144x10, .f32⟩ : BufTy).Contents (Elt F) → (⟨S_, .f32⟩ : BufTy).Contents (Elt F) → (⟨S1x262144, .f32⟩ : BufTy).Contents (Elt F)),
    nullary main_cst_2 (constant S_ .f32 0x00000000#32),
    binary main_v6 main_cst_2 main_v7 ((fun x v => Host.reduceAdd x v reducesTo_S1x262144_S_d0_1 h_S_) : (⟨S1x262144, .f32⟩ : BufTy).Contents (Elt F) → (⟨S_, .f32⟩ : BufTy).Contents (Elt F) → (⟨S_, .f32⟩ : BufTy).Contents (Elt F)),
    nullary main_cst_3 (constant S_ .f32 0x48800000#32),
    binary main_v7 main_cst_3 main_v8 (Host.divf : (⟨S_, .f32⟩ : BufTy).Contents (Elt F) → (⟨S_, .f32⟩ : BufTy).Contents (Elt F) → (⟨S_, .f32⟩ : BufTy).Contents (Elt F)),
    unary main_v8 main_v9 (Host.negf : (⟨S_, .f32⟩ : BufTy).Contents (Elt F) → (⟨S_, .f32⟩ : BufTy).Contents (Elt F)) ]

/-- The triplet sum. -/
abbrev opsC : List (HloOp τ sig (Elt F)) :=
  [ nullary main_c (constantI S_ 32 0#32),
    unary main_c main_v10 (broadcastInDim S4096 ![] bcast_S_S4096 : (⟨S_, .i32⟩ : BufTy).Contents (Elt F) → (⟨S4096, .i32⟩ : BufTy).Contents (Elt F)),
    binary main_arg5 main_v10 main_v11 (cmpi .slt : (⟨S4096, .i32⟩ : BufTy).Contents (Elt F) → (⟨S4096, .i32⟩ : BufTy).Contents (Elt F) → (⟨S4096, .i1⟩ : BufTy).Contents (Elt F)),
    nullary main_c_4 (constantI S_ 32 262144#32),
    unary main_c_4 main_v12 (broadcastInDim S4096 ![] bcast_S_S4096 : (⟨S_, .i32⟩ : BufTy).Contents (Elt F) → (⟨S4096, .i32⟩ : BufTy).Contents (Elt F)),
    binary main_arg5 main_v12 main_v13 (addi : (⟨S4096, .i32⟩ : BufTy).Contents (Elt F) → (⟨S4096, .i32⟩ : BufTy).Contents (Elt F) → (⟨S4096, .i32⟩ : BufTy).Contents (Elt F)),
    ternary main_v11 main_v13 main_arg5 main_v14 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v14 main_v15 (broadcastInDim S4096x1 ![0] bcast_S4096_S4096x1_0 : (⟨S4096, .i32⟩ : BufTy).Contents (Elt F) → (⟨S4096x1, .i32⟩ : BufTy).Contents (Elt F)),
    binary main_arg4 main_v15 main_v16 ((fun x i => Host.gather gather_S1x262144x64_S4096x1_S1x4096x64_02_1_n_n_1_1_1164 x i) : (⟨S1x262144x64, .f32⟩ : BufTy).Contents (Elt F) → (⟨S4096x1, .i32⟩ : BufTy).Contents (Elt F) → (⟨S1x4096x64, .f32⟩ : BufTy).Contents (Elt F)),
    nullary main_c_5 (constantI S_ 32 0#32),
    unary main_c_5 main_v17 (broadcastInDim S4096 ![] bcast_S_S4096 : (⟨S_, .i32⟩ : BufTy).Contents (Elt F) → (⟨S4096, .i32⟩ : BufTy).Contents (Elt F)),
    binary main_arg6 main_v17 main_v18 (cmpi .slt : (⟨S4096, .i32⟩ : BufTy).Contents (Elt F) → (⟨S4096, .i32⟩ : BufTy).Contents (Elt F) → (⟨S4096, .i1⟩ : BufTy).Contents (Elt F)),
    nullary main_c_6 (constantI S_ 32 262144#32),
    unary main_c_6 main_v19 (broadcastInDim S4096 ![] bcast_S_S4096 : (⟨S_, .i32⟩ : BufTy).Contents (Elt F) → (⟨S4096, .i32⟩ : BufTy).Contents (Elt F)),
    binary main_arg6 main_v19 main_v20 (addi : (⟨S4096, .i32⟩ : BufTy).Contents (Elt F) → (⟨S4096, .i32⟩ : BufTy).Contents (Elt F) → (⟨S4096, .i32⟩ : BufTy).Contents (Elt F)),
    ternary main_v18 main_v20 main_arg6 main_v21 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v21 main_v22 (broadcastInDim S4096x1 ![0] bcast_S4096_S4096x1_0 : (⟨S4096, .i32⟩ : BufTy).Contents (Elt F) → (⟨S4096x1, .i32⟩ : BufTy).Contents (Elt F)),
    binary main_arg4 main_v22 main_v23 ((fun x i => Host.gather gather_S1x262144x64_S4096x1_S1x4096x64_02_1_n_n_1_1_1164 x i) : (⟨S1x262144x64, .f32⟩ : BufTy).Contents (Elt F) → (⟨S4096x1, .i32⟩ : BufTy).Contents (Elt F) → (⟨S1x4096x64, .f32⟩ : BufTy).Contents (Elt F)),
    nullary main_c_7 (constantI S_ 32 0#32),
    unary main_c_7 main_v24 (broadcastInDim S4096 ![] bcast_S_S4096 : (⟨S_, .i32⟩ : BufTy).Contents (Elt F) → (⟨S4096, .i32⟩ : BufTy).Contents (Elt F)),
    binary main_arg7 main_v24 main_v25 (cmpi .slt : (⟨S4096, .i32⟩ : BufTy).Contents (Elt F) → (⟨S4096, .i32⟩ : BufTy).Contents (Elt F) → (⟨S4096, .i1⟩ : BufTy).Contents (Elt F)),
    nullary main_c_8 (constantI S_ 32 262144#32),
    unary main_c_8 main_v26 (broadcastInDim S4096 ![] bcast_S_S4096 : (⟨S_, .i32⟩ : BufTy).Contents (Elt F) → (⟨S4096, .i32⟩ : BufTy).Contents (Elt F)),
    binary main_arg7 main_v26 main_v27 (addi : (⟨S4096, .i32⟩ : BufTy).Contents (Elt F) → (⟨S4096, .i32⟩ : BufTy).Contents (Elt F) → (⟨S4096, .i32⟩ : BufTy).Contents (Elt F)),
    ternary main_v25 main_v27 main_arg7 main_v28 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v28 main_v29 (broadcastInDim S4096x1 ![0] bcast_S4096_S4096x1_0 : (⟨S4096, .i32⟩ : BufTy).Contents (Elt F) → (⟨S4096x1, .i32⟩ : BufTy).Contents (Elt F)),
    binary main_arg4 main_v29 main_v30 ((fun x i => Host.gather gather_S1x262144x64_S4096x1_S1x4096x64_02_1_n_n_1_1_1164 x i) : (⟨S1x262144x64, .f32⟩ : BufTy).Contents (Elt F) → (⟨S4096x1, .i32⟩ : BufTy).Contents (Elt F) → (⟨S1x4096x64, .f32⟩ : BufTy).Contents (Elt F)),
    binary main_v16 main_v23 main_v31 (subf : (⟨S1x4096x64, .f32⟩ : BufTy).Contents (Elt F) → (⟨S1x4096x64, .f32⟩ : BufTy).Contents (Elt F) → (⟨S1x4096x64, .f32⟩ : BufTy).Contents (Elt F)),
    binary main_v31 main_v31 main_v32 (mulf : (⟨S1x4096x64, .f32⟩ : BufTy).Contents (Elt F) → (⟨S1x4096x64, .f32⟩ : BufTy).Contents (Elt F) → (⟨S1x4096x64, .f32⟩ : BufTy).Contents (Elt F)),
    nullary main_cst_9 (constant S_ .f32 0x00000000#32),
    binary main_v32 main_cst_9 main_v33 ((fun x v => Host.reduceAdd x v reducesTo_S1x4096x64_S4096_d0_2 h_S_) : (⟨S1x4096x64, .f32⟩ : BufTy).Contents (Elt F) → (⟨S_, .f32⟩ : BufTy).Contents (Elt F) → (⟨S4096, .f32⟩ : BufTy).Contents (Elt F)),
    unary main_v33 main_v34 (Host.sqrt : (⟨S4096, .f32⟩ : BufTy).Contents (Elt F) → (⟨S4096, .f32⟩ : BufTy).Contents (Elt F)),
    binary main_v16 main_v30 main_v35 (subf : (⟨S1x4096x64, .f32⟩ : BufTy).Contents (Elt F) → (⟨S1x4096x64, .f32⟩ : BufTy).Contents (Elt F) → (⟨S1x4096x64, .f32⟩ : BufTy).Contents (Elt F)),
    binary main_v35 main_v35 main_v36 (mulf : (⟨S1x4096x64, .f32⟩ : BufTy).Contents (Elt F) → (⟨S1x4096x64, .f32⟩ : BufTy).Contents (Elt F) → (⟨S1x4096x64, .f32⟩ : BufTy).Contents (Elt F)),
    nullary main_cst_10 (constant S_ .f32 0x00000000#32),
    binary main_v36 main_cst_10 main_v37 ((fun x v => Host.reduceAdd x v reducesTo_S1x4096x64_S4096_d0_2 h_S_) : (⟨S1x4096x64, .f32⟩ : BufTy).Contents (Elt F) → (⟨S_, .f32⟩ : BufTy).Contents (Elt F) → (⟨S4096, .f32⟩ : BufTy).Contents (Elt F)),
    unary main_v37 main_v38 (Host.sqrt : (⟨S4096, .f32⟩ : BufTy).Contents (Elt F) → (⟨S4096, .f32⟩ : BufTy).Contents (Elt F)),
    binary main_v34 main_v38 main_v39 (subf : (⟨S4096, .f32⟩ : BufTy).Contents (Elt F) → (⟨S4096, .f32⟩ : BufTy).Contents (Elt F) → (⟨S4096, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4096, .f32⟩) main_call1_v0) (broadcastInDim S4096 ![] bcast_S_S4096),
    TRef.binary (TRef.of (T := ⟨S4096, .f32⟩) main_v39) (TRef.of (T := ⟨S4096, .f32⟩) main_call1_v0) (TRef.of (T := ⟨S4096, .f32⟩) main_v40) maximumf,
    nullary main_cst_11 (constant S_ .f32 0x00000000#32),
    binary main_v40 main_cst_11 main_v41 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) ]

/-- The weighted total. -/
abbrev opsD : List (HloOp τ sig (Elt F)) :=
  [ nullary main_cst_12 (constant S_ .f32 0x3F800000#32),
    binary main_cst_12 main_v3 main_v42 (mulf : (⟨S_, .f32⟩ : BufTy).Contents (Elt F) → (⟨S_, .f32⟩ : BufTy).Contents (Elt F) → (⟨S_, .f32⟩ : BufTy).Contents (Elt F)),
    nullary main_cst_13 (constant S_ .f32 0x3F800000#32),
    binary main_cst_13 main_v9 main_v43 (mulf : (⟨S_, .f32⟩ : BufTy).Contents (Elt F) → (⟨S_, .f32⟩ : BufTy).Contents (Elt F) → (⟨S_, .f32⟩ : BufTy).Contents (Elt F)),
    binary main_v42 main_v43 main_v44 (addf : (⟨S_, .f32⟩ : BufTy).Contents (Elt F) → (⟨S_, .f32⟩ : BufTy).Contents (Elt F) → (⟨S_, .f32⟩ : BufTy).Contents (Elt F)),
    nullary main_cst_14 (constant S_ .f32 0x3F800000#32),
    binary main_cst_14 main_v41 main_v45 (mulf : (⟨S_, .f32⟩ : BufTy).Contents (Elt F) → (⟨S_, .f32⟩ : BufTy).Contents (Elt F) → (⟨S_, .f32⟩ : BufTy).Contents (Elt F)),
    binary main_v44 main_v45 main_v46 (addf : (⟨S_, .f32⟩ : BufTy).Contents (Elt F) → (⟨S_, .f32⟩ : BufTy).Contents (Elt F) → (⟨S_, .f32⟩ : BufTy).Contents (Elt F)) ]

set_option maxRecDepth 8192 in
/-- The program's line of operations is the five parts in order. -/
theorem ops_split :
    (Cert.ReferenceIdeal.ValueP.ops (F := F)) = opsA ++ (opsB1 ++ (opsB2 ++ (opsC ++ opsD))) := rfl

/-- Contents moved to a buffer's own type and back are unchanged: a cast there and back. -/
theorem ofBuf_toBuf {T : BufTy} (x : TRef sig T) (v : T.Contents (Elt F)) : x.ofBuf (x.toBuf v) = v := by
  unfold TRef.ofBuf TRef.toBuf
  rw [cast_cast]
  exact cast_eq _ _

/-! ## What each part computes, from any valuation -/

theorem stageA (U : Valuation τ sig (Elt F)) :
    after (opsA (F := F)) U (Proc.devRef .tc main_v3) = val_main_v3 (F := F) (U (Proc.devRef .tc main_arg0)) (U (Proc.devRef .tc main_arg2)) := by
  after_results_simp
  try rfl

set_option maxRecDepth 8192 in
set_option maxHeartbeats 4000000 in
theorem stageB1 (U : Valuation τ sig (Elt F)) :
    after (opsB1 (F := F)) U (Proc.devRef .tc main_v4) = val_main_v4 (F := F) (U (Proc.devRef .tc main_arg3)) := by
  after_results
  simp only [ofBuf_toBuf]
  simp only [TRef.toBuf, TRef.ofBuf, cast_eq]
  rfl

theorem stageB2 (U : Valuation τ sig (Elt F)) :
    after (opsB2 (F := F)) U (Proc.devRef .tc main_v9)
      = Host.negf (Host.divf
          (Host.reduceAdd
            (Host.reduceAdd (mulf (U (Proc.devRef .tc main_arg1)) (U (Proc.devRef .tc main_v4))) (val_main_cst_1 (F := F))
              reducesTo_S1x262144x10_S1x262144_d2 h_S_)
            (val_main_cst_2 (F := F)) reducesTo_S1x262144_S_d0_1 h_S_)
          (val_main_cst_3 (F := F))) := by
  after_results_simp
  try rfl

set_option maxRecDepth 8192 in
set_option maxHeartbeats 4000000 in
theorem stageC (U : Valuation τ sig (Elt F)) :
    after (opsC (F := F)) U (Proc.devRef .tc main_v41)
      = val_main_v41 (F := F) (U (Proc.devRef .tc main_arg4)) (U (Proc.devRef .tc main_arg5)) (U (Proc.devRef .tc main_arg6)) (U (Proc.devRef .tc main_arg7)) := by
  after_results_simp
  simp only [TRef.toBuf, TRef.ofBuf, cast_eq]
  try rfl

theorem stageD (U : Valuation τ sig (Elt F)) :
    after (opsD (F := F)) U (Proc.devRef .tc main_v46)
      = addf (addf (mulf (val_main_cst_12 (F := F)) (U (Proc.devRef .tc main_v3))) (mulf (val_main_cst_13 (F := F)) (U (Proc.devRef .tc main_v9))))
          (mulf (val_main_cst_14 (F := F)) (U (Proc.devRef .tc main_v41))) := by
  after_results_simp
  try rfl

/-! ## What each part leaves alone -/

theorem keepA_arg1 (U : Valuation τ sig (Elt F)) :
    after (opsA (F := F)) U (Proc.devRef .tc main_arg1) = U (Proc.devRef .tc main_arg1) := by
  after_results_simp

theorem keepA_arg3 (U : Valuation τ sig (Elt F)) :
    after (opsA (F := F)) U (Proc.devRef .tc main_arg3) = U (Proc.devRef .tc main_arg3) := by
  after_results_simp

theorem keepA_arg4 (U : Valuation τ sig (Elt F)) :
    after (opsA (F := F)) U (Proc.devRef .tc main_arg4) = U (Proc.devRef .tc main_arg4) := by
  after_results_simp

theorem keepA_arg5 (U : Valuation τ sig (Elt F)) :
    after (opsA (F := F)) U (Proc.devRef .tc main_arg5) = U (Proc.devRef .tc main_arg5) := by
  after_results_simp

theorem keepA_arg6 (U : Valuation τ sig (Elt F)) :
    after (opsA (F := F)) U (Proc.devRef .tc main_arg6) = U (Proc.devRef .tc main_arg6) := by
  after_results_simp

theorem keepA_arg7 (U : Valuation τ sig (Elt F)) :
    after (opsA (F := F)) U (Proc.devRef .tc main_arg7) = U (Proc.devRef .tc main_arg7) := by
  after_results_simp

theorem keepB1_v3 (U : Valuation τ sig (Elt F)) :
    after (opsB1 (F := F)) U (Proc.devRef .tc main_v3) = U (Proc.devRef .tc main_v3) := by
  after_results

theorem keepB1_arg1 (U : Valuation τ sig (Elt F)) :
    after (opsB1 (F := F)) U (Proc.devRef .tc main_arg1) = U (Proc.devRef .tc main_arg1) := by
  after_results

theorem keepB1_arg4 (U : Valuation τ sig (Elt F)) :
    after (opsB1 (F := F)) U (Proc.devRef .tc main_arg4) = U (Proc.devRef .tc main_arg4) := by
  after_results

theorem keepB1_arg5 (U : Valuation τ sig (Elt F)) :
    after (opsB1 (F := F)) U (Proc.devRef .tc main_arg5) = U (Proc.devRef .tc main_arg5) := by
  after_results

theorem keepB1_arg6 (U : Valuation τ sig (Elt F)) :
    after (opsB1 (F := F)) U (Proc.devRef .tc main_arg6) = U (Proc.devRef .tc main_arg6) := by
  after_results

theorem keepB1_arg7 (U : Valuation τ sig (Elt F)) :
    after (opsB1 (F := F)) U (Proc.devRef .tc main_arg7) = U (Proc.devRef .tc main_arg7) := by
  after_results

theorem keepB2_v3 (U : Valuation τ sig (Elt F)) :
    after (opsB2 (F := F)) U (Proc.devRef .tc main_v3) = U (Proc.devRef .tc main_v3) := by
  after_results_simp

theorem keepB2_arg4 (U : Valuation τ sig (Elt F)) :
    after (opsB2 (F := F)) U (Proc.devRef .tc main_arg4) = U (Proc.devRef .tc main_arg4) := by
  after_results_simp

theorem keepB2_arg5 (U : Valuation τ sig (Elt F)) :
    after (opsB2 (F := F)) U (Proc.devRef .tc main_arg5) = U (Proc.devRef .tc main_arg5) := by
  after_results_simp

theorem keepB2_arg6 (U : Valuation τ sig (Elt F)) :
    after (opsB2 (F := F)) U (Proc.devRef .tc main_arg6) = U (Proc.devRef .tc main_arg6) := by
  after_results_simp

theorem keepB2_arg7 (U : Valuation τ sig (Elt F)) :
    after (opsB2 (F := F)) U (Proc.devRef .tc main_arg7) = U (Proc.devRef .tc main_arg7) := by
  after_results_simp

theorem keepC_v3 (U : Valuation τ sig (Elt F)) :
    after (opsC (F := F)) U (Proc.devRef .tc main_v3) = U (Proc.devRef .tc main_v3) := by
  after_results_simp

theorem keepC_v9 (U : Valuation τ sig (Elt F)) :
    after (opsC (F := F)) U (Proc.devRef .tc main_v9) = U (Proc.devRef .tc main_v9) := by
  after_results_simp

/-! ## The whole line -/

/-- The fold of the program's operations over a valuation, read at the result buffer, is the last stage of the argument
    buffers. -/
theorem after_eq (V : Valuation τ sig (Elt F)) :
    after (Cert.ReferenceIdeal.ValueP.ops (F := F)) V (Proc.devRef .tc main_v46)
      = val_main_v46 (F := F) (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  rw [ops_split, StableHlo.after_append, StableHlo.after_append, StableHlo.after_append, StableHlo.after_append]
  rw [stageD, stageC, keepC_v3, keepC_v9, stageB2, keepB2_v3, keepB2_arg4, keepB2_arg5, keepB2_arg6, keepB2_arg7,
    stageB1, keepB1_v3, keepB1_arg1, keepB1_arg4, keepB1_arg5, keepB1_arg6, keepB1_arg7, stageA,
    keepA_arg1, keepA_arg3, keepA_arg4, keepA_arg5, keepA_arg6, keepA_arg7]
  rfl

end Cert.ReferenceIdeal.RefFold

end
-- ==== Proof.RefRun.lean ====
/-
  The reference program's run ends at the loss of its arguments.

  The program is a straight line of host operations, so after its run every buffer holds the operations' results folded
  over the launch contents.  For the result buffer that fold is the last stage of the operation-by-operation reading,
  applied to the argument arrays as launched (the fold taken part by part); and that stage, at its one index, is the
  loss.
-/
import proofs.«129317_j749_2_alg».proof.Proof.RefLoss
import proofs.«129317_j749_2_alg».proof.Proof.RefFold

noncomputable section

open Idealize.ShloMosaic Idealize.ShloMosaic.TcCoe Idealize.SL.Sem Idealize.ShloMosaic.StableHlo

namespace Cert.ReferenceIdeal.LossValue

open Cert.ReferenceIdeal Cert.ReferenceIdeal.Gen Cert.ReferenceIdeal.ReadP Cert.ReferenceIdeal.RefLoss Cert.LossSpec

variable (m : (ℓ : Loc nD τ sig) → Buf (Elt Ideal) ℓ) (ρ : Dev nD → PrngReg)

/-- The loss of the arguments as launched on core c; the three index vectors enter as the start-index columns the
    program forms from them. -/
def lossOf (c : Dev nD) : EReal :=
  loss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (val_main_v15 (F := Ideal) (m ((c.tc : Thread nD τ).loc main_arg5))) (val_main_v22 (F := Ideal) (m ((c.tc : Thread nD τ).loc main_arg6)))
    (val_main_v29 (F := Ideal) (m ((c.tc : Thread nD τ).loc main_arg7)))

/-- Every weakly fair execution of the reference program terminates with its result at the loss of the arguments and
    the arguments unchanged. -/
theorem run : θ_run defs (onTc (τ := τ) (main (F := Ideal))) ⟨m, fun _ => 0, ρ⟩ fun r => ∀ c : Dev nD,
      r.2.mem ((c.tc : Thread nD τ).loc main_v46) = (fun _ => lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c).1.trans ((Cert.ReferenceIdeal.RefFold.after_eq (F := Ideal) (launchContents m c)).trans
        (funext fun i => loss_apply _ _ _ _ _ _ _ _ i)), (h c).2⟩)
    (Cert.ReferenceIdeal.ValueP.run (F := Ideal) m ρ)

end Cert.ReferenceIdeal.LossValue

end
-- ==== Proof.Claims.lean ====
/-
  The five claims.

  Both idealized programs end, from memories that agree on the arguments, with their scalar result at one and the same
  extended real: the loss of the arguments.  The kernel program reaches it through the totals its region accumulates
  tile by tile and the host operations after the region; the reference through its straight line of host operations.
  The two differ only in how the sums are grouped, in an extra maximum with −∞, in negating before or after dividing by
  262144, and in viewing the features as a matrix or as a one-entry stack of matrices — none of which changes the value.
  The start-index columns the two programs form from the index vectors are the same function.  The three frames are the
  generated frame proofs for the two kernel programs and the reference's run with its result dropped; the idealization
  rewrote nothing, so `preserves` is trivial.
-/
import proofs.«129317_j749_2_alg».proof.Defs
import proofs.«129317_j749_2_alg».proof.Proof.Gen.Kernel.Frame
import proofs.«129317_j749_2_alg».proof.Proof.Gen.Pre_finite_inputs
import proofs.«129317_j749_2_alg».proof.Proof.KernelValue
import proofs.«129317_j749_2_alg».proof.Proof.RefRun

noncomputable section

open Idealize.ShloMosaic Idealize.ShloMosaic.TcCoe Idealize.SL.Sem

namespace Cert.Proof.LossClaims

/-! ## The start-index columns of the two programs are one function -/

theorem col_eq15 (x : (⟨Cert.ReferenceIdeal.S4096, .i32⟩ : BufTy).Contents (Elt Ideal)) :
    Cert.ReferenceIdeal.ReadP.val_main_v15 (F := Ideal) x = Cert.KernelIdeal.HostTail.col (F := Ideal) x := by
  unfold Cert.ReferenceIdeal.ReadP.val_main_v15 Cert.ReferenceIdeal.ReadP.val_main_v14 Cert.ReferenceIdeal.ReadP.val_main_v13 Cert.ReferenceIdeal.ReadP.val_main_v12 Cert.ReferenceIdeal.ReadP.val_main_v11 Cert.ReferenceIdeal.ReadP.val_main_v10 Cert.ReferenceIdeal.ReadP.val_main_c Cert.ReferenceIdeal.ReadP.val_main_c_4 Cert.KernelIdeal.HostTail.col
  rfl

theorem col_eq22 (x : (⟨Cert.ReferenceIdeal.S4096, .i32⟩ : BufTy).Contents (Elt Ideal)) :
    Cert.ReferenceIdeal.ReadP.val_main_v22 (F := Ideal) x = Cert.KernelIdeal.HostTail.col (F := Ideal) x := by
  unfold Cert.ReferenceIdeal.ReadP.val_main_v22 Cert.ReferenceIdeal.ReadP.val_main_v21 Cert.ReferenceIdeal.ReadP.val_main_v20 Cert.ReferenceIdeal.ReadP.val_main_v19 Cert.ReferenceIdeal.ReadP.val_main_v18 Cert.ReferenceIdeal.ReadP.val_main_v17 Cert.ReferenceIdeal.ReadP.val_main_c_5 Cert.ReferenceIdeal.ReadP.val_main_c_6 Cert.KernelIdeal.HostTail.col
  rfl

theorem col_eq29 (x : (⟨Cert.ReferenceIdeal.S4096, .i32⟩ : BufTy).Contents (Elt Ideal)) :
    Cert.ReferenceIdeal.ReadP.val_main_v29 (F := Ideal) x = Cert.KernelIdeal.HostTail.col (F := Ideal) x := by
  unfold Cert.ReferenceIdeal.ReadP.val_main_v29 Cert.ReferenceIdeal.ReadP.val_main_v28 Cert.ReferenceIdeal.ReadP.val_main_v27 Cert.ReferenceIdeal.ReadP.val_main_v26 Cert.ReferenceIdeal.ReadP.val_main_v25 Cert.ReferenceIdeal.ReadP.val_main_v24 Cert.ReferenceIdeal.ReadP.val_main_c_7 Cert.ReferenceIdeal.ReadP.val_main_c_8 Cert.KernelIdeal.HostTail.col
  rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.LossValue.run m ρ)

theorem preserves : Cert.preserves_Kernel_KernelIdeal := trivial

/-- Both runs end at the loss of arguments that agree. -/
theorem algebraic : Cert.algebraic_KernelIdeal_ReferenceIdeal := by
  intro m ρ m' ρ' _ hagree
  refine ⟨fun c => (fun _ => Cert.KernelIdeal.LossValue.lossOf m c), Cert.KernelIdeal.LossValue.run m ρ, ?_⟩
  refine (θ_run Cert.ReferenceIdeal.defs _ _).mono (fun _ h c => ⟨(h c).1.trans ?_, (h c).2⟩)
    (Cert.ReferenceIdeal.LossValue.run m' ρ')
  refine funext fun _ => ?_
  unfold Cert.ReferenceIdeal.LossValue.lossOf Cert.KernelIdeal.LossValue.lossOf
  rw [(hagree c).1, (hagree c).2.1, (hagree c).2.2.1, (hagree c).2.2.2.1, (hagree c).2.2.2.2.1, (hagree c).2.2.2.2.2.1,
    (hagree c).2.2.2.2.2.2.1, (hagree c).2.2.2.2.2.2.2, col_eq15, col_eq22, col_eq29]

end Cert.Proof.LossClaims

end
-- ==== Proof.lean ====
/-
  The mean-squared-error + cross-entropy + triplet loss: the kernel program against its reference, on the extended reals.

  With N = 262144 positions the loss is
      1 · (Σ_r Σ_c (out[r,c] − img[r,c])²) / 786432
    + 1 · −((Σ_r Σ_c gt[r,c] · logsoftmax(seg[r,·])[c]) / 262144)
    + 1 · Σ_e max(‖f[a_e] − f[p_e]‖ − ‖f[a_e] − f[n_e]‖, 0),
  stated once in Proof/LossSpec.lean.  The kernel accumulates the two sums over 64 tiles of 4096 positions in two scratch
  cells (Proof/PointValues, RunningTotals, TileSums, BlockRows, KernelTotals), hands them to its two result cells at the
  last point (Proof/KernelOutputs), and finishes on the host (Proof/HostTail, KernelValue).  The reference computes the
  same sums all at once (Proof/RefCrossEntropy, RefLoss, RefRun).  Proof/Claims.lean states the five claims; this file
  assembles them behind the witnesses of the programs' stated facts.
-/
import proofs.«129317_j749_2_alg».proof.Defs
import proofs.«129317_j749_2_alg».proof.Proof.Gen.Kernel
import proofs.«129317_j749_2_alg».proof.Proof.Gen.Kernel.Skeleton
import proofs.«129317_j749_2_alg».proof.Proof.Gen.Kernel.Launch
import proofs.«129317_j749_2_alg».proof.Proof.Gen.Kernel.Points
import proofs.«129317_j749_2_alg».proof.Proof.Gen.Kernel.Frame
import proofs.«129317_j749_2_alg».proof.Proof.Gen.KernelIdeal
import proofs.«129317_j749_2_alg».proof.Proof.Gen.KernelIdeal.Skeleton
import proofs.«129317_j749_2_alg».proof.Proof.Gen.KernelIdeal.Launch
import proofs.«129317_j749_2_alg».proof.Proof.Gen.KernelIdeal.Points
import proofs.«129317_j749_2_alg».proof.Proof.Gen.KernelIdeal.Frame
import proofs.«129317_j749_2_alg».proof.Proof.Gen.ReferenceIdeal
import proofs.«129317_j749_2_alg».proof.Proof.Gen.Pre_finite_inputs
import proofs.«129317_j749_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    LossClaims.frame_k, LossClaims.frame_ki, LossClaims.frame_ri, LossClaims.preserves, LossClaims.algebraic⟩

end Cert.Proof

end
